-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x128 : Shape := ⟨2, ![128, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128 .f32) (main_arg8 : FVec F S128x128 .f32) (main_arg9 : FVec F S128x128 .f32) (main_arg10 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S131072x128 .f32) (main_arg1 : FVec F S131072x128 .f32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S131072x128 : Shape := ⟨2, ![131072, 128]⟩
abbrev S128x128 : Shape := ⟨2, ![128, 128]⟩
abbrev S128 : Shape := ⟨1, ![128]⟩
abbrev S128x384 : Shape := ⟨2, ![128, 384]⟩
abbrev S_ : Shape := ⟨0, ![]⟩
abbrev S256x384 : Shape := ⟨2, ![256, 384]⟩
abbrev S1x128 : Shape := ⟨2, ![1, 128]⟩
abbrev S4096x128 : Shape := ⟨2, ![4096, 128]⟩
abbrev S4096x256 : Shape := ⟨2, ![4096, 256]⟩
abbrev S4096x384 : Shape := ⟨2, ![4096, 384]⟩

abbrev nBuf : Space → Nat
  | .hbm => 20
  | .vmem => 11
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x384, .f32⟩
  | .hbm, ⟨12, _⟩ => ⟨S_, .f32⟩
  | .hbm, ⟨13, _⟩ => ⟨S128x128, .f32⟩
  | .hbm, ⟨14, _⟩ => ⟨S128x384, .f32⟩
  | .hbm, ⟨15, _⟩ => ⟨S256x384, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S131072x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S256x384, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S4096x128, .f32⟩
  | .local _ .vmem, ⟨10, _⟩ => ⟨S4096x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S128x128_S128x128_S128x128_S128x384_d1 : Shape.Concatenates [S128x128, S128x128, S128x128] S128x384 1
  bcast_S_S128x128 : S_.BroadcastsInDim S128x128 (![] : Fin 0 → Fin S128x128.rank)
  concatenates_S128x384_S128x384_S256x384_d0 : Shape.Concatenates [S128x384, S128x384] S256x384 0
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  concatenates_S4096x128_S4096x128_S4096x256_d1 : Shape.Concatenates [S4096x128, S4096x128] S4096x256 1
  slices_S4096x384_o0_0_S4096x128 : S4096x384.Slices ![0, 0] S4096x128
  broadcasts_S1x128_S4096x128 : S1x128.Broadcasts S4096x128
  slices_S4096x384_o0_128_S4096x128 : S4096x384.Slices ![0, 128] S4096x128
  slices_S4096x384_o0_256_S4096x128 : S4096x384.Slices ![0, 256] S4096x128
  dot_S4096x256_S256x384_S4096x384_1_0_0_1_n_n_wf : DotDims.WF S4096x256 S256x384 S4096x384 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x384.size a ≤ S256x384.size a
  hwx0_2 : ∀ i : grid0.Coords, EltTy.bits .f32 = 32 ∨ (Rect.block (s := S256x384) S256x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S131072x128.size a
  hwx0_7 : ∀ i : grid0.Coords, EltTy.bits .f32 = 32 ∨ (Rect.block (s := S131072x128) S4096x128.size (cc0_transform_7 i) (hinb0_7 i)).WholeWords (EltTy.packing .f32)

variable [Facts₀]

def dot_S4096x256_S256x384_S4096x384_1_0_0_1_n_n : DotDims S4096x256 S256x384 S4096x384 where
  lhsContracting := [1]
  rhsContracting := [0]
  lhsNonContracting := [0]
  rhsNonContracting := [1]
  lhsBatch := []
  rhsBatch := []
  wf := dot_S4096x256_S256x384_S4096x384_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x128 : Shape := ⟨2, ![128, 128]⟩
abbrev S128 : Shape := ⟨1, ![128]⟩
abbrev S128x384 : Shape := ⟨2, ![128, 384]⟩
abbrev S128x256 : Shape := ⟨2, ![128, 256]⟩
abbrev S131072x384 : Shape := ⟨2, ![131072, 384]⟩
abbrev S131072x256 : Shape := ⟨2, ![131072, 256]⟩
abbrev S1x128 : Shape := ⟨2, ![1, 128]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x384, .f32⟩
  | .hbm, ⟨12, _⟩ => ⟨S128x256, .f32⟩
  | .hbm, ⟨13, _⟩ => ⟨S131072x384, .f32⟩
  | .hbm, ⟨14, _⟩ => ⟨S131072x256, .f32⟩
  | .hbm, ⟨15, _⟩ => ⟨S131072x128, .f32⟩
  | .hbm, ⟨16, _⟩ => ⟨S131072x128, .f32⟩
  | .hbm, ⟨17, _⟩ => ⟨S131072x128, .f32⟩
  | .hbm, ⟨18, _⟩ => ⟨S1x128, .f32⟩
  | .hbm, ⟨19, _⟩ => ⟨S131072x128, .f32⟩
  | .hbm, ⟨20, _⟩ => ⟨S131072x128, .f32⟩
  | .hbm, ⟨21, _⟩ => ⟨S131072x128, .f32⟩
  | .hbm, ⟨22, _⟩ => ⟨S131072x128, .f32⟩
  | .hbm, ⟨23, _⟩ => ⟨S_, .f32⟩
  | .hbm, ⟨24, _⟩ => ⟨S131072x128, .f32⟩
  | .hbm, ⟨25, _⟩ => ⟨S131072x128, .f32⟩
  | .hbm, ⟨26, _⟩ => ⟨S_, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S131072x128, .f32⟩
  | .hbm, ⟨31, _⟩ => ⟨S131072x128, .f32⟩
  | .hbm, ⟨32, _⟩ => ⟨S1x128, .f32⟩
  | .hbm, ⟨33, _⟩ => ⟨S131072x128, .f32⟩
  | .hbm, ⟨34, _⟩ => ⟨S131072x128, .f32⟩
  | .hbm, ⟨35, _⟩ => ⟨S131072x128, .f32⟩
  | .hbm, ⟨36, _⟩ => ⟨S131072x128, .f32⟩
  | .hbm, ⟨37, _⟩ => ⟨S_, .f32⟩
  | .hbm, ⟨38, _⟩ => ⟨S131072x128, .f32⟩
  | .hbm, ⟨39, _⟩ => ⟨S131072x128, .f32⟩
  | .hbm, ⟨40, _⟩ => ⟨S_, .f32⟩
  | .hbm, ⟨41, _⟩ => ⟨S131072x128, .f32⟩
  | .hbm, ⟨42, _⟩ => ⟨S131072x128, .f32⟩
  | .hbm, ⟨43, _⟩ => ⟨S131072x128, .f32⟩
  | .hbm, ⟨44, _⟩ => ⟨S131072x128, .f32⟩
  | .hbm, ⟨45, _⟩ => ⟨S131072x128, .f32⟩
  | .hbm, ⟨46, _⟩ => ⟨S131072x128, .f32⟩
  | .hbm, ⟨47, _⟩ => ⟨S1x128, .f32⟩
  | .hbm, ⟨48, _⟩ => ⟨S131072x128, .f32⟩
  | .hbm, ⟨49, _⟩ => ⟨S131072x128, .f32⟩
  | .hbm, ⟨50, _⟩ => ⟨S131072x128, .f32⟩
  | .hbm, ⟨51, _⟩ => ⟨S_, .f32⟩
  | .hbm, ⟨52, _⟩ => ⟨S131072x128, .f32⟩
  | .hbm, ⟨53, _⟩ => ⟨S131072x128, .f32⟩
  | .hbm, ⟨54, _⟩ => ⟨S131072x128, .f32⟩
  | .hbm, ⟨55, _⟩ => ⟨S131072x128, .f32⟩
  | .hbm, ⟨56, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  concatenates_S128x128_S128x128_S128x128_S128x384_d1 : Shape.Concatenates [S128x128, S128x128, S128x128] S128x384 1
  concatenates_S128x128_S128x128_S128x256_d1 : Shape.Concatenates [S128x128, S128x128] S128x256 1
  slices_S131072x384_S131072x128_0_0 : S131072x384.Slices ![0, 0] S131072x128
  slices_S131072x256_S131072x128_0_0 : S131072x256.Slices ![0, 0] S131072x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  slices_S131072x384_S131072x128_0_128 : S131072x384.Slices ![0, 128] S131072x128
  slices_S131072x256_S131072x128_0_128 : S131072x256.Slices ![0, 128] S131072x128
  slices_S131072x384_S131072x128_0_256 : S131072x384.Slices ![0, 256] S131072x128
  dot_S131072x128_S128x384_S131072x384_1_0_0_1_n_n_wf : DotDims.WF S131072x128 S128x384 S131072x384 [1] [0] [0] [1] [] []
  dot_S131072x128_S128x256_S131072x256_1_0_0_1_n_n_wf : DotDims.WF S131072x128 S128x256 S131072x256 [1] [0] [0] [1] [] []
  dot_S131072x128_S128x128_S131072x128_1_0_0_1_n_n_wf : DotDims.WF S131072x128 S128x128 S131072x128 [1] [0] [0] [1] [] []

variable [Facts₀]

def dot_S131072x128_S128x384_S131072x384_1_0_0_1_n_n : DotDims S131072x128 S128x384 S131072x384 where
  lhsContracting := [1]
  rhsContracting := [0]
  lhsNonContracting := [0]
  rhsNonContracting := [1]
  lhsBatch := []
  rhsBatch := []
  wf := dot_S131072x128_S128x384_S131072x384_1_0_0_1_n_n_wf
def dot_S131072x128_S128x256_S131072x256_1_0_0_1_n_n : DotDims S131072x128 S128x256 S131072x256 where
  lhsContracting := [1]
  rhsContracting := [0]
  lhsNonContracting := [0]
  rhsNonContracting := [1]
  lhsBatch := []
  rhsBatch := []
  wf := dot_S131072x128_S128x256_S131072x256_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.KernelLaunch.lean ====
/-
  The program's prefix up to its one launch, and what the launch finds.

  The host lines before the launch build the stacked weight matrix (the three input-side matrices side by side over
  the two hidden-side matrices and a block of zeros) and turn each bias vector into a one-row matrix; none of them
  writes an argument array. So at the launch every argument array still holds what it was given, every window's
  block at a grid point is a rectangle of an array that no later point changes, and an input window's buffer holds
  that rectangle whether the point fetched it or the block index simply did not move. From a run of the whole
  program whose end state names every array, the statement "it terminates, faults nowhere and leaves its eleven
  arguments as they were" follows by reading those names off.
-/
import proofs.«161456_j39994735460383_2_alg».proof.Proof.Gen.Kernel.Launch
import proofs.«161456_j39994735460383_2_alg».proof.Proof.Gen.Kernel.Skeleton
import proofs.«161456_j39994735460383_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the launch finds -/

/-- The buffers of core `c` at the moment of the launch: the given memory after the eight host lines. -/
abbrev entry (c : Dev nD) (b : Ref sig .tc) : Buf (Elt F) ((c : Thread nD τ).loc b) :=
  StableHlo.after (List.flatten [hostOps0]) (fun b => m (c, b)) b

/-- No host line allocates. -/
theorem hostOps0_alloc_none : (hostOps0 : List (HloOp τ sig (Elt F))).Forall fun op => op.fresh = ∅ := by
  simp only [List.Forall]; repeat' constructor

/-- The program is its host lines followed by the launch. -/
theorem to_launch (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0] hostOps0_sub hostOps0_alloc_none main_chain

/-- A buffer that none of the eight host lines writes holds at the launch what it was given. -/
local macro "not_written" : tactic => `(tactic| (
  refine StableHlo.after_of_forall_not_mem _ _ (List.forall_iff_forall_mem.mp ?_)
  simp only [hostOps0, List.flatten_cons, List.flatten_nil, List.append_nil, List.cons_append, List.nil_append, List.Forall,
    StableHlo.nullary_writes, StableHlo.unary_writes, StableHlo.binary_writes, StableHlo.nary_writes, StableHlo.reshape_writes,
    Finset.mem_singleton]
  repeat' apply And.intro
  all_goals exact StableHlo.devRef_ne_of_ne (by decide)))

theorem entry_arg0 (c : Dev nD) : entry m c main_arg0 = m ((c : Thread nD τ).loc main_arg0) := by
  show StableHlo.after _ _ (Proc.devRef .tc main_arg0) = _
  not_written
theorem entry_arg1 (c : Dev nD) : entry m c main_arg1 = m ((c : Thread nD τ).loc main_arg1) := by
  show StableHlo.after _ _ (Proc.devRef .tc main_arg1) = _
  not_written
theorem entry_arg2 (c : Dev nD) : entry m c main_arg2 = m ((c : Thread nD τ).loc main_arg2) := by
  show StableHlo.after _ _ (Proc.devRef .tc main_arg2) = _
  not_written
theorem entry_arg3 (c : Dev nD) : entry m c main_arg3 = m ((c : Thread nD τ).loc main_arg3) := by
  show StableHlo.after _ _ (Proc.devRef .tc main_arg3) = _
  not_written
theorem entry_arg4 (c : Dev nD) : entry m c main_arg4 = m ((c : Thread nD τ).loc main_arg4) := by
  show StableHlo.after _ _ (Proc.devRef .tc main_arg4) = _
  not_written
theorem entry_arg5 (c : Dev nD) : entry m c main_arg5 = m ((c : Thread nD τ).loc main_arg5) := by
  show StableHlo.after _ _ (Proc.devRef .tc main_arg5) = _
  not_written
theorem entry_arg6 (c : Dev nD) : entry m c main_arg6 = m ((c : Thread nD τ).loc main_arg6) := by
  show StableHlo.after _ _ (Proc.devRef .tc main_arg6) = _
  not_written
theorem entry_arg7 (c : Dev nD) : entry m c main_arg7 = m ((c : Thread nD τ).loc main_arg7) := by
  show StableHlo.after _ _ (Proc.devRef .tc main_arg7) = _
  not_written
theorem entry_arg8 (c : Dev nD) : entry m c main_arg8 = m ((c : Thread nD τ).loc main_arg8) := by
  show StableHlo.after _ _ (Proc.devRef .tc main_arg8) = _
  not_written
theorem entry_arg9 (c : Dev nD) : entry m c main_arg9 = m ((c : Thread nD τ).loc main_arg9) := by
  show StableHlo.after _ _ (Proc.devRef .tc main_arg9) = _
  not_written
theorem entry_arg10 (c : Dev nD) : entry m c main_arg10 = m ((c : Thread nD τ).loc main_arg10) := by
  show StableHlo.after _ _ (Proc.devRef .tc main_arg10) = _
  not_written

/-! ## A window's block at a grid point -/

/-- The rectangle of window `w`'s array, as the launch finds the array, that grid point `t` addresses. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0: whatever the point, fetched there or not, its buffer holds its block, provided the body leaves it alone. -/
theorem finds_0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1: whatever the point, fetched there or not, its buffer holds its block, provided the body leaves it alone. -/
theorem finds_1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2: whatever the point, fetched there or not, its buffer holds its block, provided the body leaves it alone. -/
theorem finds_2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3: whatever the point, fetched there or not, its buffer holds its block, provided the body leaves it alone. -/
theorem finds_3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4: whatever the point, fetched there or not, its buffer holds its block, provided the body leaves it alone. -/
theorem finds_4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5: whatever the point, fetched there or not, its buffer holds its block, provided the body leaves it alone. -/
theorem finds_5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6: whatever the point, fetched there or not, its buffer holds its block, provided the body leaves it alone. -/
theorem finds_6 {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged -/

/-- From a run that names every array at its end: the three argument arrays the launch stages (the two activations and
    the candidate's hidden-side matrix) are inputs, so they end as the launch found them; the other eight are no window's
    array, so they end as the launch found them too; and the launch found each as given. -/
theorem args_kept_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).1 3).trans (((dats 0 c).arrAt_in 3 rfl _).trans ((hA c 3).trans (entry_arg9 m c))),
      ((h c).2 main_arg10 (Pipeline.mem_restRefs_of main_arg10 (by decide) (by decide))).trans (entry_arg10 m c)⟩) h

end Cert.Kernel.Frm

end
-- ==== Proof.KernelBody.lean ====
/-
  One grid point of the gated recurrent cell.

  The body reads its seven input buffers whole (a block of 4096 rows of the input activations, the same rows of the
  previous hidden state, the stacked 256×384 weight matrix, the 128×128 candidate matrix and three one-row biases),
  reads its output buffer once without using what it read, and overwrites the output buffer whole with one value: the
  new hidden rows, a pure function of the seven inputs. So after the body the inputs hold what they held and the
  output holds that function of them, whatever it held before.
-/
import proofs.«161456_j39994735460383_2_alg».proof.Proof.KernelLaunch

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rowsRect : Rect S4096x128 := Rect.unit (s := S4096x128) ![0, 0] S4096x128.size inb_S4096x128_S4096x128_0_0
abbrev stackedRect : Rect S256x384 := Rect.unit (s := S256x384) ![0, 0] S256x384.size inb_S256x384_S256x384_0_0
abbrev squareRect : Rect S128x128 := Rect.unit (s := S128x128) ![0, 0] S128x128.size inb_S128x128_S128x128_0_0
abbrev biasRect : Rect S1x128 := Rect.unit (s := S1x128) ![0, 0] S1x128.size inb_S1x128_S1x128_0_0

/-! ## What the body leaves in the output buffer -/

/-- The output buffer after the body: its one whole-buffer store, whose value is the cell's arithmetic on the seven
    inputs read whole. -/
def newRows (x h : Vec F S4096x128 .f32) (M : Vec F S256x384 .f32) (U : Vec F S128x128 .f32) (bz br bh : Vec F S1x128 .f32) :
    Vec F S4096x128 .f32 :=
  View.canon [⟨rowsRect, k0_pay1 (View.ld x rowsRect) (View.ld h rowsRect) (View.ld M stackedRect) (View.ld U squareRect)
    (View.ld bz biasRect) (View.ld br biasRect) (View.ld bh biasRect)⟩]

/-- The one store covers the buffer. -/
theorem newRows_covers (p : Vec F S4096x128 .f32) (y : S4096x128.Idx) :
    ∃ pc ∈ ([⟨rowsRect, p⟩] : List (View.Piece (Elt F) S4096x128 .f32)), y ∈ pc.1.set :=
  View.cover_of_tiled [⟨rowsRect, p⟩] S4096x128.size (by rfl) y

/-! ## The body's triple -/

set_option maxHeartbeats 1000000 in
/-- On whole buffers — the inputs at known contents, the output at any — the body runs without fault to a state where
    the inputs are as they were and the output is `newRows` of them. -/
theorem body_triple (c : Dev nD) (E : Set ℕ) (i : grid0.Coords)
    (a1 : Memref sig .tc .vmem S4096x128 .f32) (h1 : a1.IsWhole) (a2 : Memref sig .tc .vmem S4096x128 .f32) (h2 : a2.IsWhole)
    (a3 : Memref sig .tc .vmem S256x384 .f32) (h3 : a3.IsWhole) (a4 : Memref sig .tc .vmem S128x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole) (a8 : Memref sig .tc .vmem S4096x128 .f32) (h8 : a8.IsWhole)
    (x h : Vec F S4096x128 .f32) (M : Vec F S256x384 .f32) (U : Vec F S128x128 .f32) (bz br bh : Vec F S1x128 .f32)
    (K : PUnit → sProp 𝕄) :
    iprop(owns (c : Thread nD τ) a1 fullShare x ∗ owns (c : Thread nD τ) a2 fullShare h ∗ owns (c : Thread nD τ) a3 fullShare M
        ∗ owns (c : Thread nD τ) a4 fullShare U ∗ owns (c : Thread nD τ) a5 fullShare bz ∗ owns (c : Thread nD τ) a6 fullShare br
        ∗ owns (c : Thread nD τ) a7 fullShare bh ∗ (∃ d, owns (c : Thread nD τ) a8 fullShare d)
        ∗ (iprop(owns (c : Thread nD τ) a1 fullShare x ∗ owns (c : Thread nD τ) a2 fullShare h ∗ owns (c : Thread nD τ) a3 fullShare M
            ∗ owns (c : Thread nD τ) a4 fullShare U ∗ owns (c : Thread nD τ) a5 fullShare bz ∗ owns (c : Thread nD τ) a6 fullShare br
            ∗ owns (c : Thread nD τ) a7 fullShare bh ∗ owns (c : Thread nD τ) a8 fullShare (newRows x h M U bz br bh)) -∗ K ⟨⟩))
      ⊢ wp frame (wpE (defs₀ (F := F)) Variants.none c none) E (cc0__gru_kernel i a1 h1 a2 h2 a3 h3 a4 h4 a5 h5 a6 h6 a7 h7 a8 h8) K := by
  simp only [cc0__gru_kernel_eq_skeleton]; unfold cc0__gru_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
  subst e1 e2 e3 e4 e5 e6 e7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (newRows_covers _)

end Cert.Kernel.Frm

end
-- ==== Proof.KernelRun.lean ====
/-
  The whole run: every grid point in turn, and what each array holds at the end.

  At each of the 32 grid points the launch hands the body the current buffers of its eight windows. The seven input
  buffers hold their blocks (the two activation windows move with the point; the weights and biases stay at block zero);
  the body leaves them as they are and fills the output buffer with the new hidden rows of that point's blocks, which
  the launch then writes back. Nothing else is touched. So the program terminates without fault, and at the end the
  output array holds, block by block, what each point wrote, and every other array what the launch found.
-/
import proofs.«161456_j39994735460383_2_alg».proof.Proof.KernelBody

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What every buffer holds after the body, point by point -/

/-- The new hidden rows of grid point `t`: the cell's arithmetic on that point's seven blocks. -/
def rowsAt (c : Dev nD) (t : Fin cfg0.N) : Vec F S4096x128 .f32 :=
  newRows (blockAt m c 0 t) (blockAt m c 1 t) (blockAt m c 2 t) (blockAt m c 3 t) (blockAt m c 4 t) (blockAt m c 5 t) (blockAt m c 6 t)

/-- The launch's bookkeeping on core `c`: arrays as found; after the body each input buffer at its block and the output
    buffer at the point's new rows; nothing else held, nothing owed, full shares. -/
def pdata (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => rowsAt m c t
  Φ _ := Pipeline.ΦA spec0 c
  q _ := fullShare
  owed _ := 0

theorem pdata_A (c : Dev nD) (w : Fin cfg0.W) : (pdata m 0 c).A w = entry m c (Pipeline.arrRef spec0 w) := by
  dsimp only [pdata]

theorem left_0 (c : Dev nD) (t : Fin cfg0.N) : (pdata m 0 c).after 0 t = blockAt m c 0 t := by dsimp only [pdata]
theorem left_1 (c : Dev nD) (t : Fin cfg0.N) : (pdata m 0 c).after 1 t = blockAt m c 1 t := by dsimp only [pdata]
theorem left_2 (c : Dev nD) (t : Fin cfg0.N) : (pdata m 0 c).after 2 t = blockAt m c 2 t := by dsimp only [pdata]
theorem left_3 (c : Dev nD) (t : Fin cfg0.N) : (pdata m 0 c).after 3 t = blockAt m c 3 t := by dsimp only [pdata]
theorem left_4 (c : Dev nD) (t : Fin cfg0.N) : (pdata m 0 c).after 4 t = blockAt m c 4 t := by dsimp only [pdata]
theorem left_5 (c : Dev nD) (t : Fin cfg0.N) : (pdata m 0 c).after 5 t = blockAt m c 5 t := by dsimp only [pdata]
theorem left_6 (c : Dev nD) (t : Fin cfg0.N) : (pdata m 0 c).after 6 t = blockAt m c 6 t := by dsimp only [pdata]
theorem left_7 (c : Dev nD) (t : Fin cfg0.N) : (pdata m 0 c).after 7 t = rowsAt m c t := by dsimp only [pdata]

theorem found_0 (c : Dev nD) (t : Fin cfg0.N) (d) : (pdata m 0 c).before 0 t d = blockAt m c 0 t :=
  finds_0 m (pdata m 0 c) (pdata_A m c 0) (left_0 m c) t d
theorem found_1 (c : Dev nD) (t : Fin cfg0.N) (d) : (pdata m 0 c).before 1 t d = blockAt m c 1 t :=
  finds_1 m (pdata m 0 c) (pdata_A m c 1) (left_1 m c) t d
theorem found_2 (c : Dev nD) (t : Fin cfg0.N) (d) : (pdata m 0 c).before 2 t d = blockAt m c 2 t :=
  finds_2 m (pdata m 0 c) (pdata_A m c 2) (left_2 m c) t d
theorem found_3 (c : Dev nD) (t : Fin cfg0.N) (d) : (pdata m 0 c).before 3 t d = blockAt m c 3 t :=
  finds_3 m (pdata m 0 c) (pdata_A m c 3) (left_3 m c) t d
theorem found_4 (c : Dev nD) (t : Fin cfg0.N) (d) : (pdata m 0 c).before 4 t d = blockAt m c 4 t :=
  finds_4 m (pdata m 0 c) (pdata_A m c 4) (left_4 m c) t d
theorem found_5 (c : Dev nD) (t : Fin cfg0.N) (d) : (pdata m 0 c).before 5 t d = blockAt m c 5 t :=
  finds_5 m (pdata m 0 c) (pdata_A m c 5) (left_5 m c) t d
theorem found_6 (c : Dev nD) (t : Fin cfg0.N) (d) : (pdata m 0 c).before 6 t d = blockAt m c 6 t :=
  finds_6 m (pdata m 0 c) (pdata_A m c 6) (left_6 m c) t d

/-! ## The body at a grid point -/

/-- What the body is handed at point `t`, window by window, -/
def handed (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d)))

/-- and what it hands back. -/
def returned (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t))

/-- The body at any point: the inputs hold their blocks, so the body's triple applies; the rest passes through. -/
theorem body_at (c : Dev nD) (t : Fin cfg0.N) :
    handed m c t ⊢ wp frame (wpE (defs₀ (F := F)) Variants.none c none) Set.univ (bodyAt0 t) (fun _ => returned m c t) := by
  unfold handed returned bodyAt0
  simp only [found_0, found_1, found_2, found_3, found_4, found_5, found_6]
  rw [show (pdata m 0 c).Φ t.succ = (pdata m 0 c).Φ t.castSucc from rfl,
    show (pdata m 0 c).owesAt () t.succ = (pdata m 0 c).owesAt () t.castSucc from rfl,
    left_0, left_1, left_2, left_3, left_4, left_5, left_6, left_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blockAt m c 0 t) (blockAt m c 1 t) (blockAt m c 2 t) (blockAt m c 3 t)
    (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold rowsAt
  iexact H7

theorem body_everywhere (c : Dev nD) : BodyObligation (pdata (F := F) m 0 c) (defs₀ (F := F)) Variants.none () Set.univ := fun t => by
  rw [bigSep_W0, bigSep_W0]
  exact body_at m c t

/-! ## The run -/

set_option backward.isDefEq.respectTransparency.types false in
/-- Every weakly fair execution of the program terminates without fault; at the end every window's array holds what the
    bookkeeping computes for it and every other unscoped buffer what the launch found. -/
theorem whole_run : θ_run defs (onTc (τ := τ) (main (F := F))) (s₀ m ρ) (Pipeline.FramePost cfgs (pdata m) 0 (entry m)) :=
  Pipeline.θ_run_frame cfgs (pdata m) (0 : Fin 1) launch0 defs₀ Variants.none m ρ main
    (hbody := fun c => (body_everywhere m c).loose) (hshare := fun c => (pdata m 0 c).share_full fun _ => rfl)
    (howed := fun _ _ => rfl) (V := entry m) (hmain := to_launch m Variants.none) (hA := pdata_A m) (hΦ := fun _ _ => rfl)

/-- The program terminates, faults nowhere, and leaves its eleven argument arrays as given. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  args_kept_of_run m ρ (pdata m) (pdata_A m) (whole_run m ρ)

end Cert.Kernel.Frm

end
-- ==== Proof.KernelIdealLaunch.lean ====
/-
  The program's prefix up to its one launch, and what the launch finds.

  The host lines before the launch build the stacked weight matrix (the three input-side matrices side by side over
  the two hidden-side matrices and a block of zeros) and turn each bias vector into a one-row matrix; none of them
  writes an argument array. So at the launch every argument array still holds what it was given, every window's
  block at a grid point is a rectangle of an array that no later point changes, and an input window's buffer holds
  that rectangle whether the point fetched it or the block index simply did not move. From a run of the whole
  program whose end state names every array, the statement "it terminates, faults nowhere and leaves its eleven
  arguments as they were" follows by reading those names off.
-/
import proofs.«161456_j39994735460383_2_alg».proof.Proof.Gen.KernelIdeal.Launch
import proofs.«161456_j39994735460383_2_alg».proof.Proof.Gen.KernelIdeal.Skeleton
import proofs.«161456_j39994735460383_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the launch finds -/

/-- The buffers of core `c` at the moment of the launch: the given memory after the eight host lines. -/
abbrev entry (c : Dev nD) (b : Ref sig .tc) : Buf (Elt F) ((c : Thread nD τ).loc b) :=
  StableHlo.after (List.flatten [hostOps0]) (fun b => m (c, b)) b

/-- No host line allocates. -/
theorem hostOps0_alloc_none : (hostOps0 : List (HloOp τ sig (Elt F))).Forall fun op => op.fresh = ∅ := by
  simp only [List.Forall]; repeat' constructor

/-- The program is its host lines followed by the launch. -/
theorem to_launch (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0] hostOps0_sub hostOps0_alloc_none main_chain

/-- A buffer that none of the eight host lines writes holds at the launch what it was given. -/
local macro "not_written" : tactic => `(tactic| (
  refine StableHlo.after_of_forall_not_mem _ _ (List.forall_iff_forall_mem.mp ?_)
  simp only [hostOps0, List.flatten_cons, List.flatten_nil, List.append_nil, List.cons_append, List.nil_append, List.Forall,
    StableHlo.nullary_writes, StableHlo.unary_writes, StableHlo.binary_writes, StableHlo.nary_writes, StableHlo.reshape_writes,
    Finset.mem_singleton]
  repeat' apply And.intro
  all_goals exact StableHlo.devRef_ne_of_ne (by decide)))

theorem entry_arg0 (c : Dev nD) : entry m c main_arg0 = m ((c : Thread nD τ).loc main_arg0) := by
  show StableHlo.after _ _ (Proc.devRef .tc main_arg0) = _
  not_written
theorem entry_arg1 (c : Dev nD) : entry m c main_arg1 = m ((c : Thread nD τ).loc main_arg1) := by
  show StableHlo.after _ _ (Proc.devRef .tc main_arg1) = _
  not_written
theorem entry_arg2 (c : Dev nD) : entry m c main_arg2 = m ((c : Thread nD τ).loc main_arg2) := by
  show StableHlo.after _ _ (Proc.devRef .tc main_arg2) = _
  not_written
theorem entry_arg3 (c : Dev nD) : entry m c main_arg3 = m ((c : Thread nD τ).loc main_arg3) := by
  show StableHlo.after _ _ (Proc.devRef .tc main_arg3) = _
  not_written
theorem entry_arg4 (c : Dev nD) : entry m c main_arg4 = m ((c : Thread nD τ).loc main_arg4) := by
  show StableHlo.after _ _ (Proc.devRef .tc main_arg4) = _
  not_written
theorem entry_arg5 (c : Dev nD) : entry m c main_arg5 = m ((c : Thread nD τ).loc main_arg5) := by
  show StableHlo.after _ _ (Proc.devRef .tc main_arg5) = _
  not_written
theorem entry_arg6 (c : Dev nD) : entry m c main_arg6 = m ((c : Thread nD τ).loc main_arg6) := by
  show StableHlo.after _ _ (Proc.devRef .tc main_arg6) = _
  not_written
theorem entry_arg7 (c : Dev nD) : entry m c main_arg7 = m ((c : Thread nD τ).loc main_arg7) := by
  show StableHlo.after _ _ (Proc.devRef .tc main_arg7) = _
  not_written
theorem entry_arg8 (c : Dev nD) : entry m c main_arg8 = m ((c : Thread nD τ).loc main_arg8) := by
  show StableHlo.after _ _ (Proc.devRef .tc main_arg8) = _
  not_written
theorem entry_arg9 (c : Dev nD) : entry m c main_arg9 = m ((c : Thread nD τ).loc main_arg9) := by
  show StableHlo.after _ _ (Proc.devRef .tc main_arg9) = _
  not_written
theorem entry_arg10 (c : Dev nD) : entry m c main_arg10 = m ((c : Thread nD τ).loc main_arg10) := by
  show StableHlo.after _ _ (Proc.devRef .tc main_arg10) = _
  not_written

/-! ## A window's block at a grid point -/

/-- The rectangle of window `w`'s array, as the launch finds the array, that grid point `t` addresses. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0: whatever the point, fetched there or not, its buffer holds its block, provided the body leaves it alone. -/
theorem finds_0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1: whatever the point, fetched there or not, its buffer holds its block, provided the body leaves it alone. -/
theorem finds_1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2: whatever the point, fetched there or not, its buffer holds its block, provided the body leaves it alone. -/
theorem finds_2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3: whatever the point, fetched there or not, its buffer holds its block, provided the body leaves it alone. -/
theorem finds_3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4: whatever the point, fetched there or not, its buffer holds its block, provided the body leaves it alone. -/
theorem finds_4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5: whatever the point, fetched there or not, its buffer holds its block, provided the body leaves it alone. -/
theorem finds_5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6: whatever the point, fetched there or not, its buffer holds its block, provided the body leaves it alone. -/
theorem finds_6 {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged -/

/-- From a run that names every array at its end: the three argument arrays the launch stages (the two activations and
    the candidate's hidden-side matrix) are inputs, so they end as the launch found them; the other eight are no window's
    array, so they end as the launch found them too; and the launch found each as given. -/
theorem args_kept_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).1 3).trans (((dats 0 c).arrAt_in 3 rfl _).trans ((hA c 3).trans (entry_arg9 m c))),
      ((h c).2 main_arg10 (Pipeline.mem_restRefs_of main_arg10 (by decide) (by decide))).trans (entry_arg10 m c)⟩) h

end Cert.KernelIdeal.Frm

end
-- ==== Proof.KernelIdealBody.lean ====
/-
  One grid point of the gated recurrent cell.

  The body reads its seven input buffers whole (a block of 4096 rows of the input activations, the same rows of the
  previous hidden state, the stacked 256×384 weight matrix, the 128×128 candidate matrix and three one-row biases),
  reads its output buffer once without using what it read, and overwrites the output buffer whole with one value: the
  new hidden rows, a pure function of the seven inputs. So after the body the inputs hold what they held and the
  output holds that function of them, whatever it held before.
-/
import proofs.«161456_j39994735460383_2_alg».proof.Proof.KernelIdealLaunch

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body reads and writes through -/

abbrev rowsRect : Rect S4096x128 := Rect.unit (s := S4096x128) ![0, 0] S4096x128.size inb_S4096x128_S4096x128_0_0
abbrev stackedRect : Rect S256x384 := Rect.unit (s := S256x384) ![0, 0] S256x384.size inb_S256x384_S256x384_0_0
abbrev squareRect : Rect S128x128 := Rect.unit (s := S128x128) ![0, 0] S128x128.size inb_S128x128_S128x128_0_0
abbrev biasRect : Rect S1x128 := Rect.unit (s := S1x128) ![0, 0] S1x128.size inb_S1x128_S1x128_0_0

/-! ## What the body leaves in the output buffer -/

/-- The output buffer after the body: its one whole-buffer store, whose value is the cell's arithmetic on the seven
    inputs read whole. -/
def newRows (x h : Vec F S4096x128 .f32) (M : Vec F S256x384 .f32) (U : Vec F S128x128 .f32) (bz br bh : Vec F S1x128 .f32) :
    Vec F S4096x128 .f32 :=
  View.canon [⟨rowsRect, k0_pay1 (View.ld x rowsRect) (View.ld h rowsRect) (View.ld M stackedRect) (View.ld U squareRect)
    (View.ld bz biasRect) (View.ld br biasRect) (View.ld bh biasRect)⟩]

/-- The one store covers the buffer. -/
theorem newRows_covers (p : Vec F S4096x128 .f32) (y : S4096x128.Idx) :
    ∃ pc ∈ ([⟨rowsRect, p⟩] : List (View.Piece (Elt F) S4096x128 .f32)), y ∈ pc.1.set :=
  View.cover_of_tiled [⟨rowsRect, p⟩] S4096x128.size (by rfl) y

/-! ## The body's triple -/

set_option maxHeartbeats 1000000 in
/-- On whole buffers — the inputs at known contents, the output at any — the body runs without fault to a state where
    the inputs are as they were and the output is `newRows` of them. -/
theorem body_triple (c : Dev nD) (E : Set ℕ) (i : grid0.Coords)
    (a1 : Memref sig .tc .vmem S4096x128 .f32) (h1 : a1.IsWhole) (a2 : Memref sig .tc .vmem S4096x128 .f32) (h2 : a2.IsWhole)
    (a3 : Memref sig .tc .vmem S256x384 .f32) (h3 : a3.IsWhole) (a4 : Memref sig .tc .vmem S128x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole) (a8 : Memref sig .tc .vmem S4096x128 .f32) (h8 : a8.IsWhole)
    (x h : Vec F S4096x128 .f32) (M : Vec F S256x384 .f32) (U : Vec F S128x128 .f32) (bz br bh : Vec F S1x128 .f32)
    (K : PUnit → sProp 𝕄) :
    iprop(owns (c : Thread nD τ) a1 fullShare x ∗ owns (c : Thread nD τ) a2 fullShare h ∗ owns (c : Thread nD τ) a3 fullShare M
        ∗ owns (c : Thread nD τ) a4 fullShare U ∗ owns (c : Thread nD τ) a5 fullShare bz ∗ owns (c : Thread nD τ) a6 fullShare br
        ∗ owns (c : Thread nD τ) a7 fullShare bh ∗ (∃ d, owns (c : Thread nD τ) a8 fullShare d)
        ∗ (iprop(owns (c : Thread nD τ) a1 fullShare x ∗ owns (c : Thread nD τ) a2 fullShare h ∗ owns (c : Thread nD τ) a3 fullShare M
            ∗ owns (c : Thread nD τ) a4 fullShare U ∗ owns (c : Thread nD τ) a5 fullShare bz ∗ owns (c : Thread nD τ) a6 fullShare br
            ∗ owns (c : Thread nD τ) a7 fullShare bh ∗ owns (c : Thread nD τ) a8 fullShare (newRows x h M U bz br bh)) -∗ K ⟨⟩))
      ⊢ wp frame (wpE (defs₀ (F := F)) Variants.none c none) E (cc0__gru_kernel i a1 h1 a2 h2 a3 h3 a4 h4 a5 h5 a6 h6 a7 h7 a8 h8) K := by
  simp only [cc0__gru_kernel_eq_skeleton]; unfold cc0__gru_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
  subst e1 e2 e3 e4 e5 e6 e7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (newRows_covers _)

end Cert.KernelIdeal.Frm

end
-- ==== Proof.KernelIdealRun.lean ====
/-
  The whole run: every grid point in turn, and what each array holds at the end.

  At each of the 32 grid points the launch hands the body the current buffers of its eight windows. The seven input
  buffers hold their blocks (the two activation windows move with the point; the weights and biases stay at block zero);
  the body leaves them as they are and fills the output buffer with the new hidden rows of that point's blocks, which
  the launch then writes back. Nothing else is touched. So the program terminates without fault, and at the end the
  output array holds, block by block, what each point wrote, and every other array what the launch found.
-/
import proofs.«161456_j39994735460383_2_alg».proof.Proof.KernelIdealBody

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What every buffer holds after the body, point by point -/

/-- The new hidden rows of grid point `t`: the cell's arithmetic on that point's seven blocks. -/
def rowsAt (c : Dev nD) (t : Fin cfg0.N) : Vec F S4096x128 .f32 :=
  newRows (blockAt m c 0 t) (blockAt m c 1 t) (blockAt m c 2 t) (blockAt m c 3 t) (blockAt m c 4 t) (blockAt m c 5 t) (blockAt m c 6 t)

/-- The launch's bookkeeping on core `c`: arrays as found; after the body each input buffer at its block and the output
    buffer at the point's new rows; nothing else held, nothing owed, full shares. -/
def pdata (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => rowsAt m c t
  Φ _ := Pipeline.ΦA spec0 c
  q _ := fullShare
  owed _ := 0

theorem pdata_A (c : Dev nD) (w : Fin cfg0.W) : (pdata m 0 c).A w = entry m c (Pipeline.arrRef spec0 w) := by
  dsimp only [pdata]

theorem left_0 (c : Dev nD) (t : Fin cfg0.N) : (pdata m 0 c).after 0 t = blockAt m c 0 t := by dsimp only [pdata]
theorem left_1 (c : Dev nD) (t : Fin cfg0.N) : (pdata m 0 c).after 1 t = blockAt m c 1 t := by dsimp only [pdata]
theorem left_2 (c : Dev nD) (t : Fin cfg0.N) : (pdata m 0 c).after 2 t = blockAt m c 2 t := by dsimp only [pdata]
theorem left_3 (c : Dev nD) (t : Fin cfg0.N) : (pdata m 0 c).after 3 t = blockAt m c 3 t := by dsimp only [pdata]
theorem left_4 (c : Dev nD) (t : Fin cfg0.N) : (pdata m 0 c).after 4 t = blockAt m c 4 t := by dsimp only [pdata]
theorem left_5 (c : Dev nD) (t : Fin cfg0.N) : (pdata m 0 c).after 5 t = blockAt m c 5 t := by dsimp only [pdata]
theorem left_6 (c : Dev nD) (t : Fin cfg0.N) : (pdata m 0 c).after 6 t = blockAt m c 6 t := by dsimp only [pdata]
theorem left_7 (c : Dev nD) (t : Fin cfg0.N) : (pdata m 0 c).after 7 t = rowsAt m c t := by dsimp only [pdata]

theorem found_0 (c : Dev nD) (t : Fin cfg0.N) (d) : (pdata m 0 c).before 0 t d = blockAt m c 0 t :=
  finds_0 m (pdata m 0 c) (pdata_A m c 0) (left_0 m c) t d
theorem found_1 (c : Dev nD) (t : Fin cfg0.N) (d) : (pdata m 0 c).before 1 t d = blockAt m c 1 t :=
  finds_1 m (pdata m 0 c) (pdata_A m c 1) (left_1 m c) t d
theorem found_2 (c : Dev nD) (t : Fin cfg0.N) (d) : (pdata m 0 c).before 2 t d = blockAt m c 2 t :=
  finds_2 m (pdata m 0 c) (pdata_A m c 2) (left_2 m c) t d
theorem found_3 (c : Dev nD) (t : Fin cfg0.N) (d) : (pdata m 0 c).before 3 t d = blockAt m c 3 t :=
  finds_3 m (pdata m 0 c) (pdata_A m c 3) (left_3 m c) t d
theorem found_4 (c : Dev nD) (t : Fin cfg0.N) (d) : (pdata m 0 c).before 4 t d = blockAt m c 4 t :=
  finds_4 m (pdata m 0 c) (pdata_A m c 4) (left_4 m c) t d
theorem found_5 (c : Dev nD) (t : Fin cfg0.N) (d) : (pdata m 0 c).before 5 t d = blockAt m c 5 t :=
  finds_5 m (pdata m 0 c) (pdata_A m c 5) (left_5 m c) t d
theorem found_6 (c : Dev nD) (t : Fin cfg0.N) (d) : (pdata m 0 c).before 6 t d = blockAt m c 6 t :=
  finds_6 m (pdata m 0 c) (pdata_A m c 6) (left_6 m c) t d

/-! ## The body at a grid point -/

/-- What the body is handed at point `t`, window by window, -/
def handed (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d)))

/-- and what it hands back. -/
def returned (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t))

/-- The body at any point: the inputs hold their blocks, so the body's triple applies; the rest passes through. -/
theorem body_at (c : Dev nD) (t : Fin cfg0.N) :
    handed m c t ⊢ wp frame (wpE (defs₀ (F := F)) Variants.none c none) Set.univ (bodyAt0 t) (fun _ => returned m c t) := by
  unfold handed returned bodyAt0
  simp only [found_0, found_1, found_2, found_3, found_4, found_5, found_6]
  rw [show (pdata m 0 c).Φ t.succ = (pdata m 0 c).Φ t.castSucc from rfl,
    show (pdata m 0 c).owesAt () t.succ = (pdata m 0 c).owesAt () t.castSucc from rfl,
    left_0, left_1, left_2, left_3, left_4, left_5, left_6, left_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blockAt m c 0 t) (blockAt m c 1 t) (blockAt m c 2 t) (blockAt m c 3 t)
    (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold rowsAt
  iexact H7

theorem body_everywhere (c : Dev nD) : BodyObligation (pdata (F := F) m 0 c) (defs₀ (F := F)) Variants.none () Set.univ := fun t => by
  rw [bigSep_W0, bigSep_W0]
  exact body_at m c t

/-! ## The run -/

set_option backward.isDefEq.respectTransparency.types false in
/-- Every weakly fair execution of the program terminates without fault; at the end every window's array holds what the
    bookkeeping computes for it and every other unscoped buffer what the launch found. -/
theorem whole_run : θ_run defs (onTc (τ := τ) (main (F := F))) (s₀ m ρ) (Pipeline.FramePost cfgs (pdata m) 0 (entry m)) :=
  Pipeline.θ_run_frame cfgs (pdata m) (0 : Fin 1) launch0 defs₀ Variants.none m ρ main
    (hbody := fun c => (body_everywhere m c).loose) (hshare := fun c => (pdata m 0 c).share_full fun _ => rfl)
    (howed := fun _ _ => rfl) (V := entry m) (hmain := to_launch m Variants.none) (hA := pdata_A m) (hΦ := fun _ _ => rfl)

/-- The program terminates, faults nowhere, and leaves its eleven argument arrays as given. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  args_kept_of_run m ρ (pdata m) (pdata_A m) (whole_run m ρ)

end Cert.KernelIdeal.Frm

end
-- ==== Proof.LibConcat128.lean ====
/-
  Arrays glued from 128-wide pieces, read at an index, and a sum over 256 indices as two sums over 128.

  Three 128×128 arrays side by side make a 128×384 array whose entry in column `j`, `128 + j` or `256 + j` is the
  first, second or third piece's entry in column `j`; two side by side make a 128×256 array likewise; two 128×384 arrays
  one over the other make a 256×384 array whose row `k` or `128 + k` is the upper or lower piece's row `k`; two
  R×128 arrays side by side make an R×256 array. A sum over `Fin 256` of a function that is `f` on the first 128 indices
  and `g` on the last 128 is the sum of `f` plus the sum of `g`, in any commutative additive monoid.
-/
import Idealize.ShloMosaic.Lib.Pipeline.Value
import Idealize.ShloMosaic.Lib.ValueIdx

namespace Cert.LibConcat128

open Idealize.ShloMosaic Idealize.ShloMosaic.ValueIdx

variable {α : Type}

/-- The shapes: a 128×128 square, three or two of them side by side, two triples one over the other. -/
abbrev Sq : Shape := ⟨2, ![128, 128]⟩
abbrev Wide3 : Shape := ⟨2, ![128, 384]⟩
abbrev Wide2 : Shape := ⟨2, ![128, 256]⟩
abbrev Tall : Shape := ⟨2, ![256, 384]⟩

/-- A column index of a three-piece row: piece `n` (0, 1 or 2), column `j` inside it. -/
abbrev col3 (n : Fin 3) (j : Fin 128) : Fin 384 := ⟨128 * n.val + j.val, by have := n.isLt; have := j.isLt; omega⟩
/-- A column index of a two-piece row. -/
abbrev col2 (n : Fin 2) (j : Fin 128) : Fin 256 := ⟨128 * n.val + j.val, by have := n.isLt; have := j.isLt; omega⟩

/-- Three 128×128 pieces side by side: the first piece's columns. -/
theorem cat3_fst (A B C : Sq.Idx → α) (h : Shape.Concatenates [Sq, Sq, Sq] Wide3 1) (k j : Fin 128) :
    concatenate Wide3 1 [⟨Sq, A⟩, ⟨Sq, B⟩, ⟨Sq, C⟩] h (ix2 k (col3 0 j)) = A (ix2 k j) :=
  concatenate_apply_piece (t := Wide3) (1 : Fin 2) [⟨Sq, A⟩, ⟨Sq, B⟩, ⟨Sq, C⟩] h (ix2 k (col3 0 j)) 0 (by show (0 : Nat) < 3; decide) Sq A rfl rfl 0 rfl (ix2 k j)
    (fun b hb => by match b with | ⟨0, _⟩ => rfl | ⟨1, _⟩ => exact absurd rfl hb)
    (by show 0 + j.val = 128 * 0 + j.val; omega)
/-- The second piece's columns. -/
theorem cat3_snd (A B C : Sq.Idx → α) (h : Shape.Concatenates [Sq, Sq, Sq] Wide3 1) (k j : Fin 128) :
    concatenate Wide3 1 [⟨Sq, A⟩, ⟨Sq, B⟩, ⟨Sq, C⟩] h (ix2 k (col3 1 j)) = B (ix2 k j) :=
  concatenate_apply_piece (t := Wide3) (1 : Fin 2) [⟨Sq, A⟩, ⟨Sq, B⟩, ⟨Sq, C⟩] h (ix2 k (col3 1 j)) 1 (by show (1 : Nat) < 3; decide) Sq B rfl rfl 128 rfl (ix2 k j)
    (fun b hb => by match b with | ⟨0, _⟩ => rfl | ⟨1, _⟩ => exact absurd rfl hb)
    (by show 128 + j.val = 128 * 1 + j.val; omega)
/-- The third piece's columns. -/
theorem cat3_thd (A B C : Sq.Idx → α) (h : Shape.Concatenates [Sq, Sq, Sq] Wide3 1) (k j : Fin 128) :
    concatenate Wide3 1 [⟨Sq, A⟩, ⟨Sq, B⟩, ⟨Sq, C⟩] h (ix2 k (col3 2 j)) = C (ix2 k j) :=
  concatenate_apply_piece (t := Wide3) (1 : Fin 2) [⟨Sq, A⟩, ⟨Sq, B⟩, ⟨Sq, C⟩] h (ix2 k (col3 2 j)) 2 (by show (2 : Nat) < 3; decide) Sq C rfl rfl 256 rfl (ix2 k j)
    (fun b hb => by match b with | ⟨0, _⟩ => rfl | ⟨1, _⟩ => exact absurd rfl hb)
    (by show 256 + j.val = 128 * 2 + j.val; omega)

/-- Two 128×128 pieces side by side: the first piece's columns. -/
theorem cat2_fst (A B : Sq.Idx → α) (h : Shape.Concatenates [Sq, Sq] Wide2 1) (k j : Fin 128) :
    concatenate Wide2 1 [⟨Sq, A⟩, ⟨Sq, B⟩] h (ix2 k (col2 0 j)) = A (ix2 k j) :=
  concatenate_pair_apply_left (1 : Fin 2) A B h (ix2 k (col2 0 j)) rfl (ix2 k j)
    (fun b => by match b with | ⟨0, _⟩ => rfl | ⟨1, _⟩ => show j.val = 128 * 0 + j.val; omega)
/-- The second piece's columns. -/
theorem cat2_snd (A B : Sq.Idx → α) (h : Shape.Concatenates [Sq, Sq] Wide2 1) (k j : Fin 128) :
    concatenate Wide2 1 [⟨Sq, A⟩, ⟨Sq, B⟩] h (ix2 k (col2 1 j)) = B (ix2 k j) :=
  concatenate_pair_apply_right (1 : Fin 2) A B h (ix2 k (col2 1 j)) rfl rfl (ix2 k j)
    (fun b hb => by match b with | ⟨0, _⟩ => rfl | ⟨1, _⟩ => exact absurd rfl hb)
    (by show j.val + 128 = 128 * 1 + j.val; omega)

/-- Two 128×384 pieces one over the other: the upper piece's rows. -/
theorem stack_upper (A B : Wide3.Idx → α) (h : Shape.Concatenates [Wide3, Wide3] Tall 0) (k : Fin 128) (c : Fin 384) :
    concatenate Tall 0 [⟨Wide3, A⟩, ⟨Wide3, B⟩] h (ix2 (col2 0 k) c) = A (ix2 k c) :=
  concatenate_pair_apply_left (0 : Fin 2) A B h (ix2 (col2 0 k) c) rfl (ix2 k c)
    (fun b => by match b with | ⟨0, _⟩ => show k.val = 128 * 0 + k.val; omega | ⟨1, _⟩ => rfl)
/-- The lower piece's rows. -/
theorem stack_lower (A B : Wide3.Idx → α) (h : Shape.Concatenates [Wide3, Wide3] Tall 0) (k : Fin 128) (c : Fin 384) :
    concatenate Tall 0 [⟨Wide3, A⟩, ⟨Wide3, B⟩] h (ix2 (col2 1 k) c) = B (ix2 k c) :=
  concatenate_pair_apply_right (0 : Fin 2) A B h (ix2 (col2 1 k) c) rfl rfl (ix2 k c)
    (fun b hb => by match b with | ⟨0, _⟩ => exact absurd rfl hb | ⟨1, _⟩ => rfl)
    (by show k.val + 128 = 128 * 1 + k.val; omega)

/-- Two R×128 pieces side by side: the first piece's columns. -/
theorem rows_fst {R : Nat} (A B : (⟨2, ![R, 128]⟩ : Shape).Idx → α)
    (h : Shape.Concatenates [(⟨2, ![R, 128]⟩ : Shape), (⟨2, ![R, 128]⟩ : Shape)] (⟨2, ![R, 256]⟩ : Shape) 1) (p : Fin R) (j : Fin 128) :
    concatenate (⟨2, ![R, 256]⟩ : Shape) 1 [⟨(⟨2, ![R, 128]⟩ : Shape), A⟩, ⟨(⟨2, ![R, 128]⟩ : Shape), B⟩] h (ix2 p (col2 0 j)) = A (ix2 p j) :=
  concatenate_pair_apply_left (1 : Fin 2) A B h (ix2 p (col2 0 j)) rfl (ix2 p j)
    (fun b => by match b with | ⟨0, _⟩ => rfl | ⟨1, _⟩ => show j.val = 128 * 0 + j.val; omega)
/-- The second piece's columns. -/
theorem rows_snd {R : Nat} (A B : (⟨2, ![R, 128]⟩ : Shape).Idx → α)
    (h : Shape.Concatenates [(⟨2, ![R, 128]⟩ : Shape), (⟨2, ![R, 128]⟩ : Shape)] (⟨2, ![R, 256]⟩ : Shape) 1) (p : Fin R) (j : Fin 128) :
    concatenate (⟨2, ![R, 256]⟩ : Shape) 1 [⟨(⟨2, ![R, 128]⟩ : Shape), A⟩, ⟨(⟨2, ![R, 128]⟩ : Shape), B⟩] h (ix2 p (col2 1 j)) = B (ix2 p j) :=
  concatenate_pair_apply_right (1 : Fin 2) A B h (ix2 p (col2 1 j)) rfl rfl (ix2 p j)
    (fun b hb => by match b with | ⟨0, _⟩ => rfl | ⟨1, _⟩ => exact absurd rfl hb)
    (by show j.val + 128 = 128 * 1 + j.val; omega)

/-- A sum over 256 indices is the sum over the first 128 plus the sum over the last 128. -/
theorem sum_256 {M : Type} [AddCommMonoid M] (F : Fin 256 → M) :
    ∑ k : Fin 256, F k = ∑ k : Fin 128, F (col2 0 k) + ∑ k : Fin 128, F (col2 1 k) := by
  have e := Fin.sum_univ_add (M := M) (a := 128) (b := 128) F
  exact e

end Cert.LibConcat128
-- ==== Proof.CellSpec.lean ====
/-
  The gated recurrent cell on one row, as a function on the extended reals.

  For a row `x` of the input, a row `h` of the previous hidden state, six 128×128 matrices and three bias vectors:
    z  = σ(x·Wz + h·Uz + bz)        (the update gate)
    r  = σ(x·Wr + h·Ur + br)        (the reset gate)
    c  = tanh(x·Wh + (r ⊙ h)·Uh + bh)
    h' = (1 − z) ⊙ h + z ⊙ c
  with every sum read as written, left to right. One program computes x·W + h·U as ONE product of the joined row (x|h)
  with the matrices stacked one over the other; a sum over the 256 joined indices is the two sums over 128 added, so the
  two readings agree on every extended real. For the candidate the stacked matrix carries a block of zeros under Wh, and
  a sum of zeros is zero.
-/
import Idealize.ShloMosaic.PureOps.Ideal
import Idealize.ShloMosaic.PureOps.Ideal.Laws
import Idealize.ShloMosaic.PureOps.IdealRules
import proofs.«161456_j39994735460383_2_alg».proof.Proof.LibConcat128

noncomputable section

namespace Cert.Cell

open Idealize.ShloMosaic Cert.LibConcat128

/-- A row times a matrix, entry `j`. -/
def dot (a : Fin 128 → EReal) (W : Fin 128 → Fin 128 → EReal) (j : Fin 128) : EReal := ∑ k : Fin 128, a k * W k j

/-- A gate: the logistic function of input-side product plus hidden-side product plus bias. -/
def gate (x h : Fin 128 → EReal) (W U : Fin 128 → Fin 128 → EReal) (b : Fin 128 → EReal) (j : Fin 128) : EReal :=
  Ideal.logistic (dot x W j + dot h U j + b j)

/-- The candidate state. -/
def cand (x h : Fin 128 → EReal) (Wr Ur Wh Uh : Fin 128 → Fin 128 → EReal) (br bh : Fin 128 → EReal) (j : Fin 128) : EReal :=
  Ideal.tanh (dot x Wh j + dot (fun k => gate x h Wr Ur br k * h k) Uh j + bh j)

/-- The new hidden state's entry `j`. -/
def next (x h : Fin 128 → EReal) (Wz Uz Wr Ur Wh Uh : Fin 128 → Fin 128 → EReal) (bz br bh : Fin 128 → EReal) (j : Fin 128) : EReal :=
  (1 - gate x h Wz Uz bz j) * h j + gate x h Wz Uz bz j * cand x h Wr Ur Wh Uh br bh j

/-- Arrays of the program's shapes: 131072 rows of 128, a 128×128 matrix, a 128-long bias. -/
abbrev Rows := (⟨2, ![131072, 128]⟩ : Shape).Idx → EReal
abbrev Square := (⟨2, ![128, 128]⟩ : Shape).Idx → EReal
abbrev Bias := (⟨1, ![128]⟩ : Shape).Idx → EReal

/-- The whole result: the cell applied to every row. The arrays come in the programs' argument order: input rows, hidden
    rows, then (input-side matrix, hidden-side matrix, bias) for the update gate, the reset gate and the candidate. -/
def result (x h : Rows) (Wz Uz : Square) (bz : Bias) (Wr Ur : Square) (br : Bias) (Wh Uh : Square) (bh : Bias) : Rows := fun i =>
  next (fun k => x (ValueIdx.ix2 (i 0) k)) (fun k => h (ValueIdx.ix2 (i 0) k))
    (fun k j => Wz (ValueIdx.ix2 k j)) (fun k j => Uz (ValueIdx.ix2 k j)) (fun k j => Wr (ValueIdx.ix2 k j)) (fun k j => Ur (ValueIdx.ix2 k j))
    (fun k j => Wh (ValueIdx.ix2 k j)) (fun k j => Uh (ValueIdx.ix2 k j))
    (fun j => bz (ValueIdx.ix1 j)) (fun j => br (ValueIdx.ix1 j)) (fun j => bh (ValueIdx.ix1 j)) (i 1)

/-- The f32 word of 1.0 is the extended real 1. -/
theorem one_word : Ideal.ofBits .f32 0x3F800000#32 = 1 := IdealRules.sign_bit.ideal_onePat .f32

/-- The joined row against the stacked matrix: a sum over 256 indices whose first half is `x·W` and second half `h·U`. -/
theorem joined_dot (x h : Fin 128 → EReal) (W U : Fin 128 → Fin 128 → EReal) (j : Fin 128) (L R : Fin 256 → EReal)
    (hL0 : ∀ k, L (col2 0 k) = x k) (hL1 : ∀ k, L (col2 1 k) = h k) (hR0 : ∀ k, R (col2 0 k) = W k j) (hR1 : ∀ k, R (col2 1 k) = U k j) :
    ∑ k : Fin 256, L k * R k = dot x W j + dot h U j := by
  rw [sum_256]
  unfold dot
  congr 1
  · exact Finset.sum_congr rfl fun k _ => by rw [hL0, hR0]
  · exact Finset.sum_congr rfl fun k _ => by rw [hL1, hR1]

/-- The same against a stacked matrix whose lower block is zero: only the input-side product is left. -/
theorem joined_dot_zero (x h : Fin 128 → EReal) (W : Fin 128 → Fin 128 → EReal) (j : Fin 128) (L R : Fin 256 → EReal)
    (hL0 : ∀ k, L (col2 0 k) = x k) (hR0 : ∀ k, R (col2 0 k) = W k j) (hR1 : ∀ k, R (col2 1 k) = 0) :
    ∑ k : Fin 256, L k * R k = dot x W j := by
  rw [sum_256]
  unfold dot
  have z : ∑ k : Fin 128, L (col2 1 k) * R (col2 1 k) = 0 :=
    Finset.sum_eq_zero fun k _ => by rw [hR1, mul_zero]
  rw [z, add_zero]
  exact Finset.sum_congr rfl fun k _ => by rw [hL0, hR0]

end Cert.Cell

end
-- ==== Proof.KernelIdealCell.lean ====
/-
  The body's arithmetic read at one entry.

  The body joins its block of input rows with its block of hidden rows into rows of 256, multiplies by the stacked
  256×384 matrix, cuts the product into three 128-wide parts, adds a bias row to each, and finishes the gated cell
  entry by entry, with one more product (reset gate times hidden rows, by the candidate's hidden-side matrix) in the middle.
  Read at row `p`, column `q`, with the stacked matrix's six blocks named, the result is the cell on row `p` of the two
  blocks: each 256-long sum splits into the input-side and the hidden-side sum, and under the candidate's part the
  stacked matrix is zero.
-/
import proofs.«161456_j39994735460383_2_alg».proof.Proof.Gen.KernelIdeal.Skeleton
import proofs.«161456_j39994735460383_2_alg».proof.Proof.CellSpec
import Idealize.ShloMosaic.Lib.Pipeline.Value
import Idealize.ShloMosaic.Lib.ValueIdx
import Idealize.ShloMosaic.PureOps.Ideal.Laws

noncomputable section

namespace Cert.KernelIdeal.CellAt

open Cert.KernelIdeal Cert.KernelIdeal.Gen Idealize.ShloMosaic Idealize.ShloMosaic.ValueIdx Cert.LibConcat128 Cert.Cell

/-! ## The two matrix products read at an entry -/

theorem lhsA_0 (i : S4096x384.Idx) (q : dot_S4096x256_S256x384_S4096x384_1_0_0_1_n_n.contr.Idx) : (dot_S4096x256_S256x384_S4096x384_1_0_0_1_n_n.lhsIdx i q 0).val = (i 0).val := by
  unfold DotDims.lhsIdx
  rw [dif_neg (show ¬(0 : Fin S4096x256.rank) ∈ dot_S4096x256_S256x384_S4096x384_1_0_0_1_n_n.lhsBatch by decide), dif_pos (show (0 : Fin S4096x256.rank) ∈ dot_S4096x256_S256x384_S4096x384_1_0_0_1_n_n.lhsNonContracting by decide)]
  rfl
theorem lhsA_1 (i : S4096x384.Idx) (q : dot_S4096x256_S256x384_S4096x384_1_0_0_1_n_n.contr.Idx) : (dot_S4096x256_S256x384_S4096x384_1_0_0_1_n_n.lhsIdx i q 1).val = (q ⟨0, by decide⟩).val :=
  dot_S4096x256_S256x384_S4096x384_1_0_0_1_n_n.lhsIdx_val_of_single rfl i q
theorem rhsA_0 (i : S4096x384.Idx) (q : dot_S4096x256_S256x384_S4096x384_1_0_0_1_n_n.contr.Idx) : (dot_S4096x256_S256x384_S4096x384_1_0_0_1_n_n.rhsIdx i q 0).val = (q ⟨0, by decide⟩).val :=
  dot_S4096x256_S256x384_S4096x384_1_0_0_1_n_n.rhsIdx_val_of_single rfl i q
theorem rhsA_1 (i : S4096x384.Idx) (q : dot_S4096x256_S256x384_S4096x384_1_0_0_1_n_n.contr.Idx) : (dot_S4096x256_S256x384_S4096x384_1_0_0_1_n_n.rhsIdx i q 1).val = (i 1).val := by
  unfold DotDims.rhsIdx
  rw [dif_neg (show ¬(1 : Fin S256x384.rank) ∈ dot_S4096x256_S256x384_S4096x384_1_0_0_1_n_n.rhsBatch by decide), dif_pos (show (1 : Fin S256x384.rank) ∈ dot_S4096x256_S256x384_S4096x384_1_0_0_1_n_n.rhsNonContracting by decide)]
  rfl

/-- The matrix product into a zero accumulator, read at row `p`, column `c`: the sum over the contracted index. -/
theorem mmA_at (l : FVec Ideal S4096x256 .f32) (r : FVec Ideal S256x384 .f32) (p : Fin 4096) (c : Fin 384) :
    matmul (F := Ideal) dot_S4096x256_S256x384_S4096x384_1_0_0_1_n_n (some .fp32) l r (constant (F := Ideal) S4096x384 .f32 0x00000000#32) (ix2 p c) = ∑ k : Fin 256, l (ix2 p k) * r (ix2 k c) := by
  simp only [matmul]
  rw [Ideal.matmul_constant_zero_apply, ← Equiv.sum_comp (ValueIdx.contrEquiv1 dot_S4096x256_S256x384_S4096x384_1_0_0_1_n_n 256 rfl rfl).symm]
  refine Finset.sum_congr rfl fun k _ => ?_
  have hk := ValueIdx.contrEquiv1_symm_val dot_S4096x256_S256x384_S4096x384_1_0_0_1_n_n 256 rfl rfl k
  have el : dot_S4096x256_S256x384_S4096x384_1_0_0_1_n_n.lhsIdx (ix2 p c) ((ValueIdx.contrEquiv1 dot_S4096x256_S256x384_S4096x384_1_0_0_1_n_n 256 rfl rfl).symm k) = ix2 p k := funext fun a => Fin.ext (by
    match a with
    | ⟨0, _⟩ => exact lhsA_0 _ _
    | ⟨1, _⟩ => exact (lhsA_1 _ _).trans hk)
  have er : dot_S4096x256_S256x384_S4096x384_1_0_0_1_n_n.rhsIdx (ix2 p c) ((ValueIdx.contrEquiv1 dot_S4096x256_S256x384_S4096x384_1_0_0_1_n_n 256 rfl rfl).symm k) = ix2 k c := funext fun a => Fin.ext (by
    match a with
    | ⟨0, _⟩ => exact (rhsA_0 _ _).trans hk
    | ⟨1, _⟩ => exact rhsA_1 _ _)
  rw [el, er]

theorem lhsB_0 (i : S4096x128.Idx) (q : dot_S4096x128_S128x128_S4096x128_1_0_0_1_n_n.contr.Idx) : (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhsB_1 (i : S4096x128.Idx) (q : dot_S4096x128_S128x128_S4096x128_1_0_0_1_n_n.contr.Idx) : (dot_S4096x128_S128x128_S4096x128_1_0_0_1_n_n.lhsIdx i q 1).val = (q ⟨0, by decide⟩).val :=
  dot_S4096x128_S128x128_S4096x128_1_0_0_1_n_n.lhsIdx_val_of_single rfl i q
theorem rhsB_0 (i : S4096x128.Idx) (q : dot_S4096x128_S128x128_S4096x128_1_0_0_1_n_n.contr.Idx) : (dot_S4096x128_S128x128_S4096x128_1_0_0_1_n_n.rhsIdx i q 0).val = (q ⟨0, by decide⟩).val :=
  dot_S4096x128_S128x128_S4096x128_1_0_0_1_n_n.rhsIdx_val_of_single rfl i q
theorem rhsB_1 (i : S4096x128.Idx) (q : dot_S4096x128_S128x128_S4096x128_1_0_0_1_n_n.contr.Idx) : (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The matrix product into a zero accumulator, read at row `p`, column `c`: the sum over the contracted index. -/
theorem mmB_at (l : FVec Ideal S4096x128 .f32) (r : FVec Ideal S128x128 .f32) (p : Fin 4096) (c : Fin 128) :
    matmul (F := Ideal) dot_S4096x128_S128x128_S4096x128_1_0_0_1_n_n (some .fp32) l r (constant (F := Ideal) S4096x128 .f32 0x00000000#32) (ix2 p c) = ∑ k : Fin 128, l (ix2 p k) * r (ix2 k c) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p c) ((ValueIdx.contrEquiv1 dot_S4096x128_S128x128_S4096x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S4096x128_S128x128_S4096x128_1_0_0_1_n_n.rhsIdx (ix2 p c) ((ValueIdx.contrEquiv1 dot_S4096x128_S128x128_S4096x128_1_0_0_1_n_n 128 rfl rfl).symm k) = ix2 k c := funext fun a => Fin.ext (by
    match a with
    | ⟨0, _⟩ => exact (rhsB_0 _ _).trans hk
    | ⟨1, _⟩ => exact rhsB_1 _ _)
  rw [el, er]

/-! ## The layout steps read at an entry -/

/-- The 128-wide part `n` of a 384-wide product, at row `p`, column `q`. -/
theorem part0_at (J : FVec Ideal S4096x384 .f32) (p : Fin 4096) (q : Fin 128) :
    extractStridedSlice S4096x128 ![0, 0] J slices_S4096x384_o0_0_S4096x128 (ix2 p q) = J (ix2 p (col3 0 q)) :=
  extractStridedSlice_apply ![0, 0] J slices_S4096x384_o0_0_S4096x128 (ix2 p q) (ix2 p (col3 0 q)) (fun a => match a with
    | ⟨0, _⟩ => by show p.val = 0 + p.val; omega
    | ⟨1, _⟩ => by show 128 * 0 + q.val = 0 + q.val; omega)
theorem part1_at (J : FVec Ideal S4096x384 .f32) (p : Fin 4096) (q : Fin 128) :
    extractStridedSlice S4096x128 ![0, 128] J slices_S4096x384_o0_128_S4096x128 (ix2 p q) = J (ix2 p (col3 1 q)) :=
  extractStridedSlice_apply ![0, 128] J slices_S4096x384_o0_128_S4096x128 (ix2 p q) (ix2 p (col3 1 q)) (fun a => match a with
    | ⟨0, _⟩ => by show p.val = 0 + p.val; omega
    | ⟨1, _⟩ => by show 128 * 1 + q.val = 128 + q.val; omega)
theorem part2_at (J : FVec Ideal S4096x384 .f32) (p : Fin 4096) (q : Fin 128) :
    extractStridedSlice S4096x128 ![0, 256] J slices_S4096x384_o0_256_S4096x128 (ix2 p q) = J (ix2 p (col3 2 q)) :=
  extractStridedSlice_apply ![0, 256] J slices_S4096x384_o0_256_S4096x128 (ix2 p q) (ix2 p (col3 2 q)) (fun a => match a with
    | ⟨0, _⟩ => by show p.val = 0 + p.val; omega
    | ⟨1, _⟩ => by show 128 * 2 + q.val = 256 + q.val; omega)

/-- A one-row bias repeated down 4096 rows, at row `p`, column `q`: the bias's entry `q`. -/
theorem biasRow_at (b : Vec Ideal S1x128 .f32) (p : Fin 4096) (q : Fin 128) :
    broadcastTo S4096x128 (shapeCast S1x128 b shapeCasts_S1x128_S1x128) broadcasts_S1x128_S4096x128 (ix2 p q) = b (ix2 0 q) := by
  rw [shapeCast_self]
  exact broadcastTo_apply b broadcasts_S1x128_S4096x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-! ## The body's value in named parts -/

variable (x h : Vec Ideal S4096x128 .f32) (M : Vec Ideal S256x384 .f32) (U : Vec Ideal S128x128 .f32) (bz br bh : Vec Ideal S1x128 .f32)

/-- The joined rows (x|h). -/
def joinedRows : FVec Ideal S4096x256 .f32 :=
  concatenate S4096x256 1 [⟨S4096x128, x⟩, ⟨S4096x128, h⟩] concatenates_S4096x128_S4096x128_S4096x256_d1

/-- The joined rows times the stacked matrix. -/
def fused : FVec Ideal S4096x384 .f32 :=
  matmul (F := Ideal) (φ₁ := .f32) (φ₂ := .f32) dot_S4096x256_S256x384_S4096x384_1_0_0_1_n_n (some .fp32) (joinedRows x h) (shapeCast S256x384 M shapeCasts_S256x384_S256x384) (constant (F := Ideal) S4096x384 .f32 0x00000000#32)

/-- The update gate's block. -/
def zBlock : FVec Ideal S4096x128 .f32 :=
  logistic (addf (extractStridedSlice S4096x128 ![0, 0] (fused x h M) slices_S4096x384_o0_0_S4096x128)
    (broadcastTo S4096x128 (shapeCast S1x128 bz shapeCasts_S1x128_S1x128) broadcasts_S1x128_S4096x128))

/-- The reset gate's block. -/
def rBlock : FVec Ideal S4096x128 .f32 :=
  logistic (addf (extractStridedSlice S4096x128 ![0, 128] (fused x h M) slices_S4096x384_o0_128_S4096x128)
    (broadcastTo S4096x128 (shapeCast S1x128 br shapeCasts_S1x128_S1x128) broadcasts_S1x128_S4096x128))

/-- Reset gate times hidden rows, by the candidate's hidden-side matrix. -/
def resetProduct : FVec Ideal S4096x128 .f32 :=
  matmul (F := Ideal) (φ₁ := .f32) (φ₂ := .f32) dot_S4096x128_S128x128_S4096x128_1_0_0_1_n_n (some .fp32) (mulf (rBlock x h M br) h) U (constant (F := Ideal) S4096x128 .f32 0x00000000#32)

/-- The candidate's block. -/
def cBlock : FVec Ideal S4096x128 .f32 :=
  tanh (addf (addf (extractStridedSlice S4096x128 ![0, 256] (fused x h M) slices_S4096x384_o0_256_S4096x128) (resetProduct x h M U br))
    (broadcastTo S4096x128 (shapeCast S1x128 bh shapeCasts_S1x128_S1x128) broadcasts_S1x128_S4096x128))

/-- The body's one stored value is these parts combined. -/
theorem payload_parts : k0_pay1 x h M U bz br bh =
    addf (mulf (subf (broadcast S4096x128 (Scalar.ofBits (F := Ideal) .f32 0x3F800000#32)) (zBlock x h M bz)) h) (mulf (zBlock x h M bz) (cBlock x h M U br bh)) := rfl

/-! ## Each part at an entry -/

theorem joinedRows_fst (p : Fin 4096) (k : Fin 128) : joinedRows x h (ix2 p (col2 0 k)) = x (ix2 p k) :=
  rows_fst x h concatenates_S4096x128_S4096x128_S4096x256_d1 p k
theorem joinedRows_snd (p : Fin 4096) (k : Fin 128) : joinedRows x h (ix2 p (col2 1 k)) = h (ix2 p k) :=
  rows_snd x h concatenates_S4096x128_S4096x128_S4096x256_d1 p k

theorem fused_at (p : Fin 4096) (c : Fin 384) : fused x h M (ix2 p c) = ∑ k : Fin 256, joinedRows x h (ix2 p k) * M (ix2 k c) := by
  unfold fused
  rw [mmA_at, shapeCast_self]

/-- The named blocks of the stacked matrix: `W n` over `V n` in part `n`, the last lower block zero. -/
structure Stacked (M : Vec Ideal S256x384 .f32) (Wz Uz Wr Ur Wh : Fin 128 → Fin 128 → EReal) : Prop where
  wz : ∀ k j, M (ix2 (col2 0 k) (col3 0 j)) = Wz k j
  uz : ∀ k j, M (ix2 (col2 1 k) (col3 0 j)) = Uz k j
  wr : ∀ k j, M (ix2 (col2 0 k) (col3 1 j)) = Wr k j
  ur : ∀ k j, M (ix2 (col2 1 k) (col3 1 j)) = Ur k j
  wh : ∀ k j, M (ix2 (col2 0 k) (col3 2 j)) = Wh k j
  zero : ∀ k j, M (ix2 (col2 1 k) (col3 2 j)) = 0

variable {Wz Uz Wr Ur Wh : Fin 128 → Fin 128 → EReal}

theorem zBlock_at (hM : Stacked M Wz Uz Wr Ur Wh) (p : Fin 4096) (q : Fin 128) :
    zBlock x h M bz (ix2 p q) = gate (fun k => x (ix2 p k)) (fun k => h (ix2 p k)) Wz Uz (fun j => bz (ix2 0 j)) q := by
  show Ideal.logistic (extractStridedSlice S4096x128 ![0, 0] (fused x h M) slices_S4096x384_o0_0_S4096x128 (ix2 p q)
    + broadcastTo S4096x128 (shapeCast S1x128 bz shapeCasts_S1x128_S1x128) broadcasts_S1x128_S4096x128 (ix2 p q)) = _
  rw [part0_at, biasRow_at, fused_at]
  exact congrArg (fun s => Ideal.logistic (s + bz (ix2 0 q)))
    (joined_dot _ _ Wz Uz q _ _ (joinedRows_fst x h p) (joinedRows_snd x h p) (fun k => hM.wz k q) (fun k => hM.uz k q))

theorem rBlock_at (hM : Stacked M Wz Uz Wr Ur Wh) (p : Fin 4096) (q : Fin 128) :
    rBlock x h M br (ix2 p q) = gate (fun k => x (ix2 p k)) (fun k => h (ix2 p k)) Wr Ur (fun j => br (ix2 0 j)) q := by
  show Ideal.logistic (extractStridedSlice S4096x128 ![0, 128] (fused x h M) slices_S4096x384_o0_128_S4096x128 (ix2 p q)
    + broadcastTo S4096x128 (shapeCast S1x128 br shapeCasts_S1x128_S1x128) broadcasts_S1x128_S4096x128 (ix2 p q)) = _
  rw [part1_at, biasRow_at, fused_at]
  exact congrArg (fun s => Ideal.logistic (s + br (ix2 0 q)))
    (joined_dot _ _ Wr Ur q _ _ (joinedRows_fst x h p) (joinedRows_snd x h p) (fun k => hM.wr k q) (fun k => hM.ur k q))

theorem resetProduct_at (hM : Stacked M Wz Uz Wr Ur Wh) (p : Fin 4096) (q : Fin 128) :
    resetProduct x h M U br (ix2 p q)
      = dot (fun k => gate (fun k => x (ix2 p k)) (fun k => h (ix2 p k)) Wr Ur (fun j => br (ix2 0 j)) k * h (ix2 p k)) (fun k j => U (ix2 k j)) q := by
  unfold resetProduct
  rw [mmB_at]
  unfold dot
  refine Finset.sum_congr rfl fun k _ => ?_
  show rBlock x h M br (ix2 p k) * h (ix2 p k) * U (ix2 k q) = _
  rw [rBlock_at x h M br hM p k]

theorem cBlock_at (hM : Stacked M Wz Uz Wr Ur Wh) (p : Fin 4096) (q : Fin 128) :
    cBlock x h M U br bh (ix2 p q)
      = cand (fun k => x (ix2 p k)) (fun k => h (ix2 p k)) Wr Ur Wh (fun k j => U (ix2 k j)) (fun j => br (ix2 0 j)) (fun j => bh (ix2 0 j)) q := by
  show Ideal.tanh (extractStridedSlice S4096x128 ![0, 256] (fused x h M) slices_S4096x384_o0_256_S4096x128 (ix2 p q)
    + resetProduct x h M U br (ix2 p q)
    + broadcastTo S4096x128 (shapeCast S1x128 bh shapeCasts_S1x128_S1x128) broadcasts_S1x128_S4096x128 (ix2 p q)) = _
  rw [part2_at, biasRow_at, fused_at, resetProduct_at x h M U br hM p q,
    joined_dot_zero (fun k => x (ix2 p k)) (fun k => h (ix2 p k)) Wh q _ _ (joinedRows_fst x h p) (fun k => hM.wh k q) (fun k => hM.zero k q)]
  rfl

/-- The body's stored value at row `p`, column `q`: the cell on row `p` of the blocks. -/
theorem payload_at (hM : Stacked M Wz Uz Wr Ur Wh) (p : Fin 4096) (q : Fin 128) :
    k0_pay1 x h M U bz br bh (ix2 p q)
      = next (fun k => x (ix2 p k)) (fun k => h (ix2 p k)) Wz Uz Wr Ur Wh (fun k j => U (ix2 k j))
          (fun j => bz (ix2 0 j)) (fun j => br (ix2 0 j)) (fun j => bh (ix2 0 j)) q := by
  rw [payload_parts]
  show (Ideal.ofBits .f32 0x3F800000#32 - zBlock x h M bz (ix2 p q)) * h (ix2 p q) + zBlock x h M bz (ix2 p q) * cBlock x h M U br bh (ix2 p q) = _
  rw [zBlock_at x h M bz hM p q, cBlock_at x h M U br bh hM p q, one_word]
  rfl

end Cert.KernelIdeal.CellAt

end
-- ==== Proof.KernelIdealValue.lean ====
/-
  The output array after the run, as one function of the argument arrays.

  Grid point `t` works on rows 4096·t … 4096·t + 4095 of the two activation arrays and writes the same rows of the output;
  the weights and biases it reads are the same at every point. The stacked matrix the launch finds is the input-side
  matrices (update, reset, candidate) side by side over the hidden-side matrices (update, reset) and a block of zeros;
  each one-row bias is its bias vector. So what point `t` writes back is rows 4096·t … of the cell applied to every row,
  the 32 blocks cover the output array, and the array ends as the cell applied to every row of the arguments.
-/
import proofs.«161456_j39994735460383_2_alg».proof.Proof.KernelIdealRun
import proofs.«161456_j39994735460383_2_alg».proof.Proof.KernelIdealCell
import Idealize.ShloMosaic.Lib.StableHlo.Run
import Idealize.ShloMosaic.Lib.Pipeline.Value

set_option maxRecDepth 16384

noncomputable section

namespace Cert.KernelIdeal.Whole

open Cert.KernelIdeal Cert.KernelIdeal.Gen Cert.KernelIdeal.Frm Cert.KernelIdeal.CellAt
open Idealize.ShloMosaic Idealize.ShloMosaic.TcCoe Idealize.SL.Sem Idealize.ShloMosaic.StableHlo Idealize.ShloMosaic.ValueIdx
open Idealize.ShloMosaic.Pipeline (Dat)
open Cert.LibConcat128 Cert.Cell

variable (m : (ℓ : Loc nD τ sig) → Buf (Elt Ideal) ℓ) (ρ : Dev nD → PrngReg) (c : Dev nD)

/-! ## What the host lines leave in the arrays the launch stages -/

/-- The stacked matrix as the host lines build it. -/
def stackedOf : S256x384.Idx → EReal :=
  concatenate S256x384 0
    [⟨S128x384, concatenate S128x384 1 [⟨S128x128, (m ((c.tc : Thread nD τ).loc main_arg2))⟩, ⟨S128x128, (m ((c.tc : Thread nD τ).loc main_arg5))⟩, ⟨S128x128, (m ((c.tc : Thread nD τ).loc main_arg8))⟩] concatenates_S128x128_S128x128_S128x128_S128x384_d1⟩,
     ⟨S128x384, concatenate S128x384 1 [⟨S128x128, (m ((c.tc : Thread nD τ).loc main_arg3))⟩, ⟨S128x128, (m ((c.tc : Thread nD τ).loc main_arg6))⟩,
        ⟨S128x128, broadcastInDim S128x128 ![] bcast_S_S128x128 (constant (F := Ideal) S_ .f32 0x00000000#32)⟩] concatenates_S128x128_S128x128_S128x128_S128x384_d1⟩]
    concatenates_S128x384_S128x384_S256x384_d0

theorem entry_stacked : (entry m c main_v3 : S256x384.Idx → EReal) = stackedOf m c := by
  dsimp only [entry]
  simp only [hostOps0, List.flatten_cons, List.flatten_nil, List.append_nil]
  after_results
  rfl

theorem entry_biasZ : (entry m c main_v4 : S1x128.Idx → EReal) = shapeCast S1x128 (m ((c.tc : Thread nD τ).loc main_arg4)) shapeCasts_S128_S1x128 := by
  dsimp only [entry]
  simp only [hostOps0, List.flatten_cons, List.flatten_nil, List.append_nil]
  after_results
  rfl
theorem entry_biasR : (entry m c main_v5 : S1x128.Idx → EReal) = shapeCast S1x128 (m ((c.tc : Thread nD τ).loc main_arg7)) shapeCasts_S128_S1x128 := by
  dsimp only [entry]
  simp only [hostOps0, List.flatten_cons, List.flatten_nil, List.append_nil]
  after_results
  rfl
theorem entry_biasH : (entry m c main_v6 : S1x128.Idx → EReal) = shapeCast S1x128 (m ((c.tc : Thread nD τ).loc main_arg10)) shapeCasts_S128_S1x128 := by
  dsimp only [entry]
  simp only [hostOps0, List.flatten_cons, List.flatten_nil, List.append_nil]
  after_results
  rfl

/-- A bias vector as a one-row matrix, at column `j`. -/
theorem oneRow_at (b : S128.Idx → EReal) (j : Fin 128) : shapeCast S1x128 b shapeCasts_S128_S1x128 (ix2 0 j) = b (ix1 j) := by
  refine (shapeCast_addUnit_apply ![128] b shapeCasts_S128_S1x128 (ix2 0 j)).trans (congrArg b ?_)
  funext a
  match a with
  | ⟨0, _⟩ => rfl

/-- The block of zeros. -/
theorem zeros_at (k j : Fin 128) :
    broadcastInDim S128x128 ![] bcast_S_S128x128 (constant (F := Ideal) S_ .f32 0x00000000#32) (ix2 k j) = (0 : EReal) := by
  rw [broadcastInDim_apply _ bcast_S_S128x128 _ (ix2 k j) ix0 (fun a => a.elim0)]
  exact Ideal.ofBits_zero_f32

/-- The stacked matrix's six blocks. -/
theorem stacked_blocks : Stacked (stackedOf m c) (fun k j => (m ((c.tc : Thread nD τ).loc main_arg2)) (ix2 k j)) (fun k j => (m ((c.tc : Thread nD τ).loc main_arg3)) (ix2 k j)) (fun k j => (m ((c.tc : Thread nD τ).loc main_arg5)) (ix2 k j))
    (fun k j => (m ((c.tc : Thread nD τ).loc main_arg6)) (ix2 k j)) (fun k j => (m ((c.tc : Thread nD τ).loc main_arg8)) (ix2 k j)) where
  wz k j := (stack_upper _ _ concatenates_S128x384_S128x384_S256x384_d0 k (col3 0 j)).trans (cat3_fst _ _ _ concatenates_S128x128_S128x128_S128x128_S128x384_d1 k j)
  uz k j := (stack_lower _ _ concatenates_S128x384_S128x384_S256x384_d0 k (col3 0 j)).trans (cat3_fst _ _ _ concatenates_S128x128_S128x128_S128x128_S128x384_d1 k j)
  wr k j := (stack_upper _ _ concatenates_S128x384_S128x384_S256x384_d0 k (col3 1 j)).trans (cat3_snd _ _ _ concatenates_S128x128_S128x128_S128x128_S128x384_d1 k j)
  ur k j := (stack_lower _ _ concatenates_S128x384_S128x384_S256x384_d0 k (col3 1 j)).trans (cat3_snd _ _ _ concatenates_S128x128_S128x128_S128x128_S128x384_d1 k j)
  wh k j := (stack_upper _ _ concatenates_S128x384_S128x384_S256x384_d0 k (col3 2 j)).trans (cat3_thd _ _ _ concatenates_S128x128_S128x128_S128x128_S128x384_d1 k j)
  zero k j := ((stack_lower _ _ concatenates_S128x384_S128x384_S256x384_d0 k (col3 2 j)).trans (cat3_thd _ _ _ concatenates_S128x128_S128x128_S128x128_S128x384_d1 k j)).trans (zeros_at k j)

/-! ## The windows' blocks, entry by entry -/

/-- Where each window's block sits: the activations' and the output's block `t` at point `t`, the others' block 0. -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `p` of block `t` is row `4096·t + p` of the array. -/
abbrev rowOf (t : Fin cfg0.N) (p : Fin 4096) : Fin 131072 := ⟨t.val * 4096 + p.val, by
  have h1 : t.val < 32 := lt_of_lt_of_eq t.isLt N_0; have h2 := p.isLt; omega⟩

theorem xBlock_at (t : Fin cfg0.N) (p : Fin 4096) (k : Fin 128) : blockAt m c 0 t (ix2 p k) = (m ((c.tc : Thread nD τ).loc main_arg0)) (ix2 (rowOf t p) k) := by
  obtain ⟨e, e', -⟩ := block_indices t
  show entry m c main_arg0 (((cfg0.win 0).blk t).view.emb (ix2 p k)) = _
  rw [entry_arg0]
  refine congrArg _ (funext fun a => Fin.ext ?_)
  match a with
  | ⟨0, _⟩ => show win0_0.index t (0 : Fin 2) * 4096 + 1 * p.val = t.val * 4096 + p.val; omega
  | ⟨1, _⟩ => show win0_0.index t (1 : Fin 2) * 128 + 1 * k.val = k.val; omega

theorem hBlock_at (t : Fin cfg0.N) (p : Fin 4096) (k : Fin 128) : blockAt m c 1 t (ix2 p k) = (m ((c.tc : Thread nD τ).loc main_arg1)) (ix2 (rowOf t p) k) := by
  obtain ⟨-, -, e, e', -⟩ := block_indices t
  show entry m c main_arg1 (((cfg0.win 1).blk t).view.emb (ix2 p k)) = _
  rw [entry_arg1]
  refine congrArg _ (funext fun a => Fin.ext ?_)
  match a with
  | ⟨0, _⟩ => show win0_1.index t (0 : Fin 2) * 4096 + 1 * p.val = t.val * 4096 + p.val; omega
  | ⟨1, _⟩ => show win0_1.index t (1 : Fin 2) * 128 + 1 * k.val = k.val; omega

theorem mBlock_at (t : Fin cfg0.N) (a : Fin 256) (b : Fin 384) : blockAt m c 2 t (ix2 a b) = stackedOf m c (ix2 a b) := by
  obtain ⟨-, -, -, -, -, -, e, e', -⟩ := block_indices t
  show entry m c main_v3 (((cfg0.win 2).blk t).view.emb (ix2 a b)) = _
  rw [entry_stacked]
  refine congrArg _ (funext fun d => Fin.ext ?_)
  match d with
  | ⟨0, _⟩ => show win0_2.index t (0 : Fin 2) * 256 + 1 * a.val = a.val; omega
  | ⟨1, _⟩ => show win0_2.index t (1 : Fin 2) * 384 + 1 * b.val = b.val; omega

theorem uBlock_at (t : Fin cfg0.N) (a b : Fin 128) : blockAt m c 3 t (ix2 a b) = (m ((c.tc : Thread nD τ).loc main_arg9)) (ix2 a b) := by
  obtain ⟨-, -, -, -, -, -, -, -, e, e', -⟩ := block_indices t
  show entry m c main_arg9 (((cfg0.win 3).blk t).view.emb (ix2 a b)) = _
  rw [entry_arg9]
  refine congrArg _ (funext fun d => Fin.ext ?_)
  match d with
  | ⟨0, _⟩ => show win0_3.index t (0 : Fin 2) * 128 + 1 * a.val = a.val; omega
  | ⟨1, _⟩ => show win0_3.index t (1 : Fin 2) * 128 + 1 * b.val = b.val; omega

theorem bzBlock_at (t : Fin cfg0.N) (j : Fin 128) : blockAt m c 4 t (ix2 0 j) = (m ((c.tc : Thread nD τ).loc main_arg4)) (ix1 j) := by
  obtain ⟨-, -, -, -, -, -, -, -, -, -, e, e', -⟩ := block_indices t
  show entry m c main_v4 (((cfg0.win 4).blk t).view.emb (ix2 0 j)) = _
  rw [entry_biasZ]
  refine (congrArg _ (funext fun d => Fin.ext ?_)).trans (oneRow_at _ j)
  match d with
  | ⟨0, _⟩ => show win0_4.index t (0 : Fin 2) * 1 + 1 * 0 = 0; omega
  | ⟨1, _⟩ => show win0_4.index t (1 : Fin 2) * 128 + 1 * j.val = j.val; omega

theorem brBlock_at (t : Fin cfg0.N) (j : Fin 128) : blockAt m c 5 t (ix2 0 j) = (m ((c.tc : Thread nD τ).loc main_arg7)) (ix1 j) := by
  obtain ⟨-, -, -, -, -, -, -, -, -, -, -, -, e, e', -⟩ := block_indices t
  show entry m c main_v5 (((cfg0.win 5).blk t).view.emb (ix2 0 j)) = _
  rw [entry_biasR]
  refine (congrArg _ (funext fun d => Fin.ext ?_)).trans (oneRow_at _ j)
  match d with
  | ⟨0, _⟩ => show win0_5.index t (0 : Fin 2) * 1 + 1 * 0 = 0; omega
  | ⟨1, _⟩ => show win0_5.index t (1 : Fin 2) * 128 + 1 * j.val = j.val; omega

theorem bhBlock_at (t : Fin cfg0.N) (j : Fin 128) : blockAt m c 6 t (ix2 0 j) = (m ((c.tc : Thread nD τ).loc main_arg10)) (ix1 j) := by
  obtain ⟨-, -, -, -, -, -, -, -, -, -, -, -, -, -, e, e'⟩ := block_indices t
  show entry m c main_v6 (((cfg0.win 6).blk t).view.emb (ix2 0 j)) = _
  rw [entry_biasH]
  refine (congrArg _ (funext fun d => Fin.ext ?_)).trans (oneRow_at _ j)
  match d with
  | ⟨0, _⟩ => show win0_6.index t (0 : Fin 2) * 1 + 1 * 0 = 0; omega
  | ⟨1, _⟩ => show win0_6.index t (1 : Fin 2) * 128 + 1 * j.val = j.val; omega

theorem mBlock_stacked (t : Fin cfg0.N) : Stacked (blockAt m c 2 t) (fun k j => (m ((c.tc : Thread nD τ).loc main_arg2)) (ix2 k j)) (fun k j => (m ((c.tc : Thread nD τ).loc main_arg3)) (ix2 k j))
    (fun k j => (m ((c.tc : Thread nD τ).loc main_arg5)) (ix2 k j)) (fun k j => (m ((c.tc : Thread nD τ).loc main_arg6)) (ix2 k j)) (fun k j => (m ((c.tc : Thread nD τ).loc main_arg8)) (ix2 k j)) where
  wz k j := (mBlock_at m c t _ _).trans ((stacked_blocks m c).wz k j)
  uz k j := (mBlock_at m c t _ _).trans ((stacked_blocks m c).uz k j)
  wr k j := (mBlock_at m c t _ _).trans ((stacked_blocks m c).wr k j)
  ur k j := (mBlock_at m c t _ _).trans ((stacked_blocks m c).ur k j)
  wh k j := (mBlock_at m c t _ _).trans ((stacked_blocks m c).wh k j)
  zero k j := (mBlock_at m c t _ _).trans ((stacked_blocks m c).zero k j)

/-! ## What a point writes back, and the whole array -/

/-- The cell applied to every row of the argument arrays. -/
abbrev wholeResult : S131072x128.Idx → EReal :=
  result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

theorem zero_offsets : (![0, 0] : Fin 2 → Nat) = fun _ => 0 := funext fun a => by fin_cases a <;> rfl

/-- What point `t` writes back is block `t` of the whole result. -/
theorem written_back (t : Fin cfg0.N) :
    (pdata m 0 c).flushed 7 t = ((cfg0.win 7).blk t).view.read (Elt Ideal) (wholeResult m c) := by
  show (cfg0.win 7).cut (grid0.coords t) ((pdata m 0 c).after 7 t) = _
  rw [left_7]
  unfold rowsAt newRows
  rw [View.canon_unit_zero zero_offsets]
  simp only [View.ld_unit_zero (S := S4096x128) zero_offsets, View.ld_unit_zero (S := S256x384) zero_offsets,
    View.ld_unit_zero (S := S128x128) zero_offsets, View.ld_unit_zero (S := S1x128) zero_offsets]
  funext y
  obtain ⟨p, q, rfl⟩ : ∃ (p : Fin 4096) (q : Fin 128), y = ix2 p q := ⟨y 0, y 1, eq_ix2 y⟩
  obtain ⟨-, -, -, -, e, e', -⟩ := block_indices t
  have hemb : ((cfg0.win 7).blk t).view.emb (ix2 p q) = ix2 (rowOf t p) q := funext fun a => Fin.ext (by
    match a with
    | ⟨0, _⟩ => show win0_7.index t (0 : Fin 2) * 4096 + 1 * p.val = t.val * 4096 + p.val; omega
    | ⟨1, _⟩ => show win0_7.index t (1 : Fin 2) * 128 + 1 * q.val = q.val; omega)
  show k0_pay1 (blockAt m c 0 t) (blockAt m c 1 t) (blockAt m c 2 t) (blockAt m c 3 t) (blockAt m c 4 t) (blockAt m c 5 t) (blockAt m c 6 t) (ix2 p q)
    = wholeResult m c (((cfg0.win 7).blk t).view.emb (ix2 p q))
  rw [hemb]
  refine (payload_at (blockAt m c 0 t) (blockAt m c 1 t) (blockAt m c 2 t) (blockAt m c 3 t) (blockAt m c 4 t) (blockAt m c 5 t)
    (blockAt m c 6 t) (mBlock_stacked m c t) p q).trans ?_
  show _ = next (fun k => (m ((c.tc : Thread nD τ).loc main_arg0)) (ix2 (rowOf t p) k)) (fun k => (m ((c.tc : Thread nD τ).loc main_arg1)) (ix2 (rowOf t p) k)) _ _ _ _ _ (fun k j => (m ((c.tc : Thread nD τ).loc main_arg9)) (ix2 k j))
    (fun j => (m ((c.tc : Thread nD τ).loc main_arg4)) (ix1 j)) (fun j => (m ((c.tc : Thread nD τ).loc main_arg7)) (ix1 j)) (fun j => (m ((c.tc : Thread nD τ).loc main_arg10)) (ix1 j)) q
  rw [funext fun k => xBlock_at m c t p k, funext fun k => hBlock_at m c t p k,
    funext fun k => funext fun j => uBlock_at m c t k j, funext fun j => bzBlock_at m c t j, funext fun j => brBlock_at m c t j,
    funext fun j => bhBlock_at m c t j]

/-- An index lies in point `t`'s block when each coordinate lies in the block's range. -/
theorem in_block (t : Fin cfg0.N) (i : S131072x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v7).slice (win0_7.rect t)).set ↔ _
  rw [View.set_slice_whole, Rect.mem_set_unit]
  exact Iff.rfl

/-- Every index of the output array lies in some point's block: row `r` in block `r / 4096`. -/
theorem blocks_cover (i : S131072x128.Idx) : ∃ t : Fin cfg0.N, (cfg0.win 7).flush t = true ∧ i ∈ ((cfg0.win 7).blk t).view.set := by
  have hi0 : (i 0).val < 131072 := (i 0).isLt
  have hi1 : (i 1).val < 128 := (i 1).isLt
  let t : Fin cfg0.N := ⟨(i 0).val / 4096, by show (i 0).val / 4096 < grid0.N; rw [N_0]; omega⟩
  obtain ⟨-, -, -, -, e, e', -⟩ := block_indices t
  refine ⟨t, flush0_7 t, ?_⟩
  rw [in_block]
  have ht : t.val = (i 0).val / 4096 := rfl
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 128 ≤ (i 1).val ∧ (i 1).val < win0_7.index t (1 : Fin 2) * 128 + 128; omega

/-- The output array after the run. -/
theorem final_array : (pdata m 0 c).arrAt 7 cfg0.N = wholeResult m c :=
  (pdata m 0 c).arrAt_eq_of_cover 7 (wholeResult m c) (fun t _ => written_back m c t) (blocks_cover)

/-- The run with the output array named as the cell of the arguments, and the arguments as given. -/
theorem run : θ_run defs (onTc (τ := τ) (main (F := Ideal))) ⟨m, fun _ => 0, ρ⟩ fun r => ∀ c : Dev nD,
      r.2.mem ((c.tc : Thread nD τ).loc main_v7) = wholeResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r hr c => ⟨((hr c).1 7).trans (final_array m c),
      ((hr c).1 0).trans (((pdata m 0 c).arrAt_in 0 rfl _).trans ((pdata_A m c 0).trans (entry_arg0 m c))),
      ((hr c).1 1).trans (((pdata m 0 c).arrAt_in 1 rfl _).trans ((pdata_A m c 1).trans (entry_arg1 m c))),
      ((hr c).2 main_arg2 (Pipeline.mem_restRefs_of main_arg2 (by decide) (by decide))).trans (entry_arg2 m c),
      ((hr c).2 main_arg3 (Pipeline.mem_restRefs_of main_arg3 (by decide) (by decide))).trans (entry_arg3 m c),
      ((hr c).2 main_arg4 (Pipeline.mem_restRefs_of main_arg4 (by decide) (by decide))).trans (entry_arg4 m c),
      ((hr c).2 main_arg5 (Pipeline.mem_restRefs_of main_arg5 (by decide) (by decide))).trans (entry_arg5 m c),
      ((hr c).2 main_arg6 (Pipeline.mem_restRefs_of main_arg6 (by decide) (by decide))).trans (entry_arg6 m c),
      ((hr c).2 main_arg7 (Pipeline.mem_restRefs_of main_arg7 (by decide) (by decide))).trans (entry_arg7 m c),
      ((hr c).2 main_arg8 (Pipeline.mem_restRefs_of main_arg8 (by decide) (by decide))).trans (entry_arg8 m c),
      ((hr c).1 3).trans (((pdata m 0 c).arrAt_in 3 rfl _).trans ((pdata_A m c 3).trans (entry_arg9 m c))),
      ((hr c).2 main_arg10 (Pipeline.mem_restRefs_of main_arg10 (by decide) (by decide))).trans (entry_arg10 m c)⟩)
    (whole_run m ρ)

end Cert.KernelIdeal.Whole

end
-- ==== Proof.ReferenceCell.lean ====
/-
  The reference program's result read at one entry.

  The reference multiplies the input rows by the three input-side matrices side by side and the hidden rows by the two
  gate matrices side by side, cuts the products into 128-wide parts, adds the biases, writes the logistic function out as
  1 / (1 + exp(−·)), and finishes the gated cell entry by entry. Read at row `r`, column `q`, that is the cell on row `r`:
  a column of a side-by-side matrix is a column of one piece, and the written-out logistic is the logistic function once
  the f32 word of 1.0 is read as the number 1.
-/
import proofs.«161456_j39994735460383_2_alg».proof.Proof.Gen.ReferenceIdeal.Read
import proofs.«161456_j39994735460383_2_alg».proof.Proof.CellSpec

noncomputable section

namespace Cert.ReferenceIdeal.CellAt

open Cert.ReferenceIdeal Cert.ReferenceIdeal.Gen Cert.ReferenceIdeal.Read Idealize.ShloMosaic Idealize.ShloMosaic.ValueIdx Cert.LibConcat128 Cert.Cell

variable (x0 x1 : (⟨S131072x128, .f32⟩ : BufTy).Contents (Elt Ideal)) (x2 x3 x5 x6 x8 x9 : (⟨S128x128, .f32⟩ : BufTy).Contents (Elt Ideal))
  (x4 x7 x10 : (⟨S128, .f32⟩ : BufTy).Contents (Elt Ideal))

/-! ## The side-by-side matrices, column by column -/

theorem inputSide_z (k j : Fin 128) : val_main_v0 (F := Ideal) x2 x5 x8 (ix2 k (col3 0 j)) = x2 (ix2 k j) :=
  cat3_fst x2 x5 x8 concatenates_S128x128_S128x128_S128x128_S128x384_d1 k j
theorem inputSide_r (k j : Fin 128) : val_main_v0 (F := Ideal) x2 x5 x8 (ix2 k (col3 1 j)) = x5 (ix2 k j) :=
  cat3_snd x2 x5 x8 concatenates_S128x128_S128x128_S128x128_S128x384_d1 k j
theorem inputSide_h (k j : Fin 128) : val_main_v0 (F := Ideal) x2 x5 x8 (ix2 k (col3 2 j)) = x8 (ix2 k j) :=
  cat3_thd x2 x5 x8 concatenates_S128x128_S128x128_S128x128_S128x384_d1 k j
theorem hiddenSide_z (k j : Fin 128) : val_main_v1 (F := Ideal) x3 x6 (ix2 k (col2 0 j)) = x3 (ix2 k j) :=
  cat2_fst x3 x6 concatenates_S128x128_S128x128_S128x256_d1 k j
theorem hiddenSide_r (k j : Fin 128) : val_main_v1 (F := Ideal) x3 x6 (ix2 k (col2 1 j)) = x6 (ix2 k j) :=
  cat2_snd x3 x6 concatenates_S128x128_S128x128_S128x256_d1 k j

/-! ## The two wide products at an entry -/

theorem inputProduct_at (r : Fin 131072) (c : Fin 384) :
    val_main_v2 (F := Ideal) x0 x2 x5 x8 (ix2 r c) = ∑ k : Fin 128, x0 (ix2 r k) * val_main_v0 (F := Ideal) x2 x5 x8 (ix2 k c) := by
  rw [val_main_v2_apply]
  refine Finset.sum_congr rfl fun k _ => ?_
  have e1 : lidx_main_v2 (ix2 r c) k = ix2 r k := funext fun a => Fin.ext (by match a with | ⟨0, _⟩ => rfl | ⟨1, _⟩ => rfl)
  have e2 : ridx_main_v2 (ix2 r c) k = ix2 k c := funext fun a => Fin.ext (by match a with | ⟨0, _⟩ => rfl | ⟨1, _⟩ => rfl)
  rw [e1, e2]

theorem hiddenProduct_at (r : Fin 131072) (c : Fin 256) :
    val_main_v3 (F := Ideal) x1 x3 x6 (ix2 r c) = ∑ k : Fin 128, x1 (ix2 r k) * val_main_v1 (F := Ideal) x3 x6 (ix2 k c) := by
  rw [val_main_v3_apply]
  refine Finset.sum_congr rfl fun k _ => ?_
  have e1 : lidx_main_v3 (ix2 r c) k = ix2 r k := funext fun a => Fin.ext (by match a with | ⟨0, _⟩ => rfl | ⟨1, _⟩ => rfl)
  have e2 : ridx_main_v3 (ix2 r c) k = ix2 k c := funext fun a => Fin.ext (by match a with | ⟨0, _⟩ => rfl | ⟨1, _⟩ => rfl)
  rw [e1, e2]

/-! ## The 128-wide parts as row-times-matrix -/

local notation "xr" r => (fun k : Fin 128 => x0 (ix2 r k))
local notation "hr" r => (fun k : Fin 128 => x1 (ix2 r k))

theorem xWz (r : Fin 131072) (q : Fin 128) : val_main_v4 (F := Ideal) x0 x2 x5 x8 (ix2 r q) = dot (xr r) (fun k j => x2 (ix2 k j)) q := by
  have e : idx_main_v4 (ix2 r q) = ix2 r (col3 0 q) := funext fun a => Fin.ext (by
    match a with | ⟨0, _⟩ => rfl | ⟨1, _⟩ => show q.val = 128 * 0 + q.val; omega)
  rw [val_main_v4_apply, e, inputProduct_at]
  exact Finset.sum_congr rfl fun k _ => by rw [inputSide_z]
theorem xWr (r : Fin 131072) (q : Fin 128) : val_main_v16 (F := Ideal) x0 x2 x5 x8 (ix2 r q) = dot (xr r) (fun k j => x5 (ix2 k j)) q := by
  have e : idx_main_v16 (ix2 r q) = ix2 r (col3 1 q) := funext fun a => Fin.ext (by
    match a with | ⟨0, _⟩ => rfl | ⟨1, _⟩ => show 128 + q.val = 128 * 1 + q.val; omega)
  rw [val_main_v16_apply, e, inputProduct_at]
  exact Finset.sum_congr rfl fun k _ => by rw [inputSide_r]
theorem xWh (r : Fin 131072) (q : Fin 128) : val_main_v28 (F := Ideal) x0 x2 x5 x8 (ix2 r q) = dot (xr r) (fun k j => x8 (ix2 k j)) q := by
  have e : idx_main_v28 (ix2 r q) = ix2 r (col3 2 q) := funext fun a => Fin.ext (by
    match a with | ⟨0, _⟩ => rfl | ⟨1, _⟩ => show 256 + q.val = 128 * 2 + q.val; omega)
  rw [val_main_v28_apply, e, inputProduct_at]
  exact Finset.sum_congr rfl fun k _ => by rw [inputSide_h]
theorem hUz (r : Fin 131072) (q : Fin 128) : val_main_v5 (F := Ideal) x1 x3 x6 (ix2 r q) = dot (hr r) (fun k j => x3 (ix2 k j)) q := by
  have e : idx_main_v5 (ix2 r q) = ix2 r (col2 0 q) := funext fun a => Fin.ext (by
    match a with | ⟨0, _⟩ => rfl | ⟨1, _⟩ => show q.val = 128 * 0 + q.val; omega)
  rw [val_main_v5_apply, e, hiddenProduct_at]
  exact Finset.sum_congr rfl fun k _ => by rw [hiddenSide_z]
theorem hUr (r : Fin 131072) (q : Fin 128) : val_main_v17 (F := Ideal) x1 x3 x6 (ix2 r q) = dot (hr r) (fun k j => x6 (ix2 k j)) q := by
  have e : idx_main_v17 (ix2 r q) = ix2 r (col2 1 q) := funext fun a => Fin.ext (by
    match a with | ⟨0, _⟩ => rfl | ⟨1, _⟩ => show 128 + q.val = 128 * 1 + q.val; omega)
  rw [val_main_v17_apply, e, hiddenProduct_at]
  exact Finset.sum_congr rfl fun k _ => by rw [hiddenSide_r]

/-! ## The biases at an entry -/

theorem biasZ_at (r : Fin 131072) (q : Fin 128) : val_main_v8 (F := Ideal) x4 (ix2 r q) = x4 (ix1 q) := by
  rw [val_main_v8_apply, val_main_v7_apply]
  exact congrArg x4 (funext fun a => Fin.ext (by match a with | ⟨0, _⟩ => rfl))
theorem biasR_at (r : Fin 131072) (q : Fin 128) : val_main_v20 (F := Ideal) x7 (ix2 r q) = x7 (ix1 q) := by
  rw [val_main_v20_apply, val_main_v19_apply]
  exact congrArg x7 (funext fun a => Fin.ext (by match a with | ⟨0, _⟩ => rfl))
theorem biasH_at (r : Fin 131072) (q : Fin 128) : val_main_v33 (F := Ideal) x10 (ix2 r q) = x10 (ix1 q) := by
  rw [val_main_v33_apply, val_main_v32_apply]
  exact congrArg x10 (funext fun a => Fin.ext (by match a with | ⟨0, _⟩ => rfl))

/-! ## The gates, the candidate and the result at an entry -/

/-- 1 / (1 + exp(−s)) with the two ones given as the f32 word of 1.0 is the logistic function of `s`. -/
theorem written_logistic (s : EReal) :
    FloatOps.hostDivf (F := Ideal) (φ := .f32) (FloatOps.ofBits .f32 0x3F800000#32)
      (FloatOps.addf (FloatOps.ofBits .f32 0x3F800000#32) (FloatOps.hostUnary .exp (FloatOps.hostNegf s))) = Ideal.logistic s := by
  show Ideal.div (Ideal.ofBits .f32 0x3F800000#32) (Ideal.ofBits .f32 0x3F800000#32 + Ideal.exp (-s)) = _
  rw [one_word]
  rfl

theorem updateGate_at (r : Fin 131072) (q : Fin 128) :
    val_main_v15 (F := Ideal) x0 x1 x2 x3 x4 x5 x6 x8 (ix2 r q)
      = gate (xr r) (hr r) (fun k j => x2 (ix2 k j)) (fun k j => x3 (ix2 k j)) (fun j => x4 (ix1 j)) q := by
  have e : val_main_v9 (F := Ideal) x0 x1 x2 x3 x4 x5 x6 x8 (ix2 r q)
      = dot (xr r) (fun k j => x2 (ix2 k j)) q + dot (hr r) (fun k j => x3 (ix2 k j)) q + x4 (ix1 q) := by
    rw [val_main_v9_apply, val_main_v6_apply, xWz, hUz, biasZ_at]; rfl
  rw [val_main_v15_apply, val_main_v14_apply, val_main_cst_0_apply, val_main_v13_apply, val_main_v12_apply, val_main_cst_apply,
    val_main_v11_apply, val_main_v10_apply, e]
  exact written_logistic _

theorem resetGate_at (r : Fin 131072) (q : Fin 128) :
    val_main_v27 (F := Ideal) x0 x1 x2 x3 x5 x6 x7 x8 (ix2 r q)
      = gate (xr r) (hr r) (fun k j => x5 (ix2 k j)) (fun k j => x6 (ix2 k j)) (fun j => x7 (ix1 j)) q := by
  have e : val_main_v21 (F := Ideal) x0 x1 x2 x3 x5 x6 x7 x8 (ix2 r q)
      = dot (xr r) (fun k j => x5 (ix2 k j)) q + dot (hr r) (fun k j => x6 (ix2 k j)) q + x7 (ix1 q) := by
    rw [val_main_v21_apply, val_main_v18_apply, xWr, hUr, biasR_at]; rfl
  rw [val_main_v27_apply, val_main_v26_apply, val_main_cst_2_apply, val_main_v25_apply, val_main_v24_apply, val_main_cst_1_apply,
    val_main_v23_apply, val_main_v22_apply, e]
  exact written_logistic _

theorem resetProduct_at (r : Fin 131072) (q : Fin 128) :
    val_main_v30 (F := Ideal) x0 x1 x2 x3 x5 x6 x7 x8 x9 (ix2 r q)
      = dot (fun k => gate (xr r) (hr r) (fun k j => x5 (ix2 k j)) (fun k j => x6 (ix2 k j)) (fun j => x7 (ix1 j)) k * x1 (ix2 r k)) (fun k j => x9 (ix2 k j)) q := by
  rw [val_main_v30_apply]
  refine Finset.sum_congr rfl fun k _ => ?_
  have e1 : lidx_main_v30 (ix2 r q) k = ix2 r k := funext fun a => Fin.ext (by match a with | ⟨0, _⟩ => rfl | ⟨1, _⟩ => rfl)
  have e2 : ridx_main_v30 (ix2 r q) k = ix2 k q := funext fun a => Fin.ext (by match a with | ⟨0, _⟩ => rfl | ⟨1, _⟩ => rfl)
  rw [e1, e2, val_main_v29_apply, resetGate_at]
  rfl

theorem candidate_at (r : Fin 131072) (q : Fin 128) :
    val_main_v35 (F := Ideal) x0 x1 x2 x3 x5 x6 x7 x8 x9 x10 (ix2 r q)
      = cand (xr r) (hr r) (fun k j => x5 (ix2 k j)) (fun k j => x6 (ix2 k j)) (fun k j => x8 (ix2 k j)) (fun k j => x9 (ix2 k j))
          (fun j => x7 (ix1 j)) (fun j => x10 (ix1 j)) q := by
  rw [val_main_v35_apply, val_main_v34_apply, val_main_v31_apply, xWh, resetProduct_at, biasH_at]
  rfl

/-- The reference's result at row `r`, column `q`: the cell on row `r`. -/
theorem result_at (r : Fin 131072) (q : Fin 128) :
    val_main_v40 (F := Ideal) x0 x1 x2 x3 x4 x5 x6 x7 x8 x9 x10 (ix2 r q)
      = next (xr r) (hr r) (fun k j => x2 (ix2 k j)) (fun k j => x3 (ix2 k j)) (fun k j => x5 (ix2 k j)) (fun k j => x6 (ix2 k j))
          (fun k j => x8 (ix2 k j)) (fun k j => x9 (ix2 k j)) (fun j => x4 (ix1 j)) (fun j => x7 (ix1 j)) (fun j => x10 (ix1 j)) q := by
  rw [val_main_v40_apply, val_main_v38_apply, val_main_v37_apply, val_main_v36_apply, val_main_cst_3_apply, val_main_v39_apply,
    updateGate_at, candidate_at]
  show (Ideal.ofBits .f32 0x3F800000#32 - _) * _ + _ * _ = _
  rw [one_word]
  rfl

/-- The reference's whole result is the cell applied to every row. -/
theorem result_eq : val_main_v40 (F := Ideal) x0 x1 x2 x3 x4 x5 x6 x7 x8 x9 x10 = result x0 x1 x2 x3 x4 x5 x6 x7 x8 x9 x10 := by
  funext i
  obtain ⟨r, q, rfl⟩ : ∃ (r : Fin 131072) (q : Fin 128), i = ix2 r q := ⟨i 0, i 1, eq_ix2 i⟩
  exact result_at x0 x1 x2 x3 x5 x6 x8 x9 x4 x7 x10 r q

end Cert.ReferenceIdeal.CellAt

end
-- ==== Proof.lean ====
/-
  A gated recurrent cell on 131072 rows of 128: a tiled program against a plain one.

  The tiled program stacks the three input-side weight matrices side by side over the two hidden-side gate matrices and a
  block of zeros, and at each of 32 grid points multiplies 4096 joined rows (input | hidden) by that stacked matrix in one
  product; the plain program multiplies the input rows and the hidden rows separately and adds. Read on the extended
  reals with exact operations, both compute, for every row,
      z = σ(x·Wz + h·Uz + bz),  r = σ(x·Wr + h·Ur + br),  c = tanh(x·Wh + (r ⊙ h)·Uh + bh),  h' = (1 − z) ⊙ h + z ⊙ c,
  because a sum over the 256 joined indices is the sum over the first 128 plus the sum over the last 128, a sum of
  products with zero is zero, and 1 / (1 + exp(−s)) is the logistic function. No law used needs finite values.
  Each program terminates, faults nowhere and leaves its eleven arguments as given: the tiled one because each grid
  point only reads its input buffers and overwrites its output buffer whole, the plain one because it is a straight line
  of host operations. The idealized tiled program is the tiled program's own text read at exact values.
-/
import proofs.«161456_j39994735460383_2_alg».proof.Defs
import proofs.«161456_j39994735460383_2_alg».proof.Proof.Gen.Kernel
import proofs.«161456_j39994735460383_2_alg».proof.Proof.Gen.KernelIdeal
import proofs.«161456_j39994735460383_2_alg».proof.Proof.Gen.ReferenceIdeal
import proofs.«161456_j39994735460383_2_alg».proof.Proof.Gen.Pre_finite_inputs
import proofs.«161456_j39994735460383_2_alg».proof.Proof.Gen.ReferenceIdeal.Read
import proofs.«161456_j39994735460383_2_alg».proof.Proof.KernelRun
import proofs.«161456_j39994735460383_2_alg».proof.Proof.KernelIdealValue
import proofs.«161456_j39994735460383_2_alg».proof.Proof.ReferenceCell
import Idealize.ShloMosaic.Adequacy
import Idealize.ShloMosaic.Init

noncomputable section

namespace Cert.Proof

open Idealize.ShloMosaic Idealize.ShloMosaic.TcCoe Idealize.SL.Sem

/-- The tiled program as printed runs to the end and keeps its arguments. -/
theorem frame_tiled : Cert.frame_Kernel := fun m ρ _ => Cert.Kernel.Frm.args_kept (F := Bits) m ρ

/-- So does its reading at exact values. -/
theorem frame_tiled_exact : Cert.frame_KernelIdeal := fun m ρ _ => Cert.KernelIdeal.Frm.args_kept (F := Ideal) m ρ

/-- The plain program is a straight line of host operations: its run, with the result forgotten. -/
theorem frame_plain : Cert.frame_ReferenceIdeal := fun m ρ _ =>
  (θ_run Cert.ReferenceIdeal.defs _ _).mono (fun _ h c => (h c).2) (Cert.ReferenceIdeal.Value.run (F := Ideal) m ρ)

/-- From memories that agree on the arguments both programs end with the cell applied to every row. -/
theorem same_result : Cert.algebraic_KernelIdeal_ReferenceIdeal := by
  intro m ρ m' ρ' _ hagree
  refine ⟨fun c => Cert.KernelIdeal.Whole.wholeResult m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v40_eq, Cert.ReferenceIdeal.CellAt.result_eq, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_tiled, frame_tiled_exact, frame_plain, trivial, same_result⟩

end Cert.Proof

end
